-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4 : Shape := ⟨2, ![65536, 4]⟩
abbrev S1x4096 : Shape := ⟨2, ![1, 4096]⟩
abbrev S1 : Shape := ⟨1, ![1]⟩
abbrev S_ : Shape := ⟨0, ![]⟩

class Facts : Prop where
  bcast_S_S65536x4 : S_.BroadcastsInDim S65536x4 (![] : Fin 0 → Fin S65536x4.rank)
  reducesTo_S65536x4_S_d0_1 : S65536x4.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S65536x4 .f32) (main_arg1 : FVec F S1x4096 .f32) (main_arg2 : FVec F S1 .f32) : IVec S_ 1 :=
  let main_v0 : FVec F S65536x4 .f32 := Host.absf main_arg0
  let main_cst : FVec F S_ .f32 := constant S_ .f32 0x7F800000#32
  let main_v1 : FVec F S65536x4 .f32 := broadcastInDim S65536x4 ![] bcast_S_S65536x4 main_cst
  let main_v2 : IVec S65536x4 1 := cmpf .olt main_v0 main_v1
  let main_c : IVec S_ 1 := constantI S_ 1 1#1
  let main_v3 : IVec S_ 1 := (fun x v => Host.reduce IntOp.andi x v reducesTo_S65536x4_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S65536x4 : Shape := ⟨2, ![65536, 4]⟩
abbrev S1x4096 : Shape := ⟨2, ![1, 4096]⟩
abbrev S1 : Shape := ⟨1, ![1]⟩
abbrev S4x65536 : Shape := ⟨2, ![4, 65536]⟩
abbrev S64x64 : Shape := ⟨2, ![64, 64]⟩
abbrev S1x1 : Shape := ⟨2, ![1, 1]⟩
abbrev S1x65536 : Shape := ⟨2, ![1, 65536]⟩
abbrev S65536x1 : Shape := ⟨2, ![65536, 1]⟩
abbrev S4x8192 : Shape := ⟨2, ![4, 8192]⟩
abbrev S1x8192 : Shape := ⟨2, ![1, 8192]⟩
abbrev S2x8192 : Shape := ⟨2, ![2, 8192]⟩
abbrev S8x8192 : Shape := ⟨2, ![8, 8192]⟩
abbrev S64x8192 : Shape := ⟨2, ![64, 8192]⟩
abbrev S8192 : Shape := ⟨1, ![8192]⟩

abbrev nBuf : Space → Nat
  | .hbm => 8
  | .vmem => 6
  | .smem => 0
  | _ => 0

abbrev bufTy : (tb : Table) → Fin (tcTables nBuf tb) → BufTy
  | .hbm, ⟨0, _⟩ => ⟨S65536x4, .f32⟩
  | .hbm, ⟨1, _⟩ => ⟨S1x4096, .f32⟩
  | .hbm, ⟨2, _⟩ => ⟨S1, .f32⟩
  | .hbm, ⟨3, _⟩ => ⟨S4x65536, .f32⟩
  | .hbm, ⟨4, _⟩ => ⟨S64x64, .f32⟩
  | .hbm, ⟨5, _⟩ => ⟨S1x1, .f32⟩
  | .hbm, ⟨6, _⟩ => ⟨S1x65536, .f32⟩
  | .hbm, ⟨7, _⟩ => ⟨S65536x1, .f32⟩
  | .local _ .vmem, ⟨0, _⟩ => ⟨S4x8192, .f32⟩
  | .local _ .vmem, ⟨1, _⟩ => ⟨S4x8192, .f32⟩
  | .local _ .vmem, ⟨2, _⟩ => ⟨S64x64, .f32⟩
  | .local _ .vmem, ⟨3, _⟩ => ⟨S1x1, .f32⟩
  | .local _ .vmem, ⟨4, _⟩ => ⟨S1x8192, .f32⟩
  | .local _ .vmem, ⟨5, _⟩ => ⟨S1x8192, .f32⟩
  | _, _ => ⟨S65536x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S65536x4_S4x65536_1_0 : S65536x4.Transposes [1, 0] S4x65536
  shapeCasts_S1x4096_S64x64 : S1x4096.ShapeCasts S64x64
  shapeCasts_S1_S1x1 : S1.ShapeCasts S1x1
  transposes_S1x65536_S65536x1_1_0 : S1x65536.Transposes [1, 0] S65536x1
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  slices_S4x8192_o2_0_S2x8192 : S4x8192.Slices ![2, 0] S2x8192
  slices_S2x8192_o0_0_S1x8192 : S2x8192.Slices ![0, 0] S1x8192
  concatenates_S1x8192_S1x8192_S1x8192_S1x8192_S1x8192_S1x8192_S1x8192_S1x8192_S8x8192_d0 : Shape.Concatenates [S1x8192, S1x8192, S1x8192, S1x8192, S1x8192, S1x8192, S1x8192, S1x8192] S8x8192 0
  slices_S2x8192_o1_0_S1x8192 : S2x8192.Slices ![1, 0] S1x8192
  slices_S8x8192_o0_0_S1x8192 : S8x8192.Slices ![0, 0] S1x8192
  broadcasts_S1x8192_S8x8192 : S1x8192.Broadcasts S8x8192
  slices_S8x8192_o1_0_S1x8192 : S8x8192.Slices ![1, 0] S1x8192
  slices_S8x8192_o2_0_S1x8192 : S8x8192.Slices ![2, 0] S1x8192
  slices_S8x8192_o3_0_S1x8192 : S8x8192.Slices ![3, 0] S1x8192
  slices_S8x8192_o4_0_S1x8192 : S8x8192.Slices ![4, 0] S1x8192
  slices_S8x8192_o5_0_S1x8192 : S8x8192.Slices ![5, 0] S1x8192
  slices_S8x8192_o6_0_S1x8192 : S8x8192.Slices ![6, 0] S1x8192
  slices_S8x8192_o7_0_S1x8192 : S8x8192.Slices ![7, 0] S1x8192
  concatenates_S8x8192_S8x8192_S8x8192_S8x8192_S8x8192_S8x8192_S8x8192_S8x8192_S64x8192_d0 : Shape.Concatenates [S8x8192, S8x8192, S8x8192, S8x8192, S8x8192, S8x8192, S8x8192, S8x8192] S64x8192 0
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  slices_S4x8192_o0_0_S2x8192 : S4x8192.Slices ![0, 0] S2x8192
  reduces_S64x8192_S8192 : S64x8192.Reduces [0] S8192
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x65536.size a
  hwx0_0 : ∀ i : grid0.Coords, EltTy.bits .f32 = 32 ∨ (Rect.block (s := S4x65536) S4x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x65536.size a
  hwx0_3 : ∀ i : grid0.Coords, EltTy.bits .f32 = 32 ∨ (Rect.block (s := S1x65536) S1x8192.size (cc0_transform_3 i) (hinb0_3 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_call0_v0) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x4 : Shape := ⟨2, ![65536, 4]⟩
abbrev S1x4096 : Shape := ⟨2, ![1, 4096]⟩
abbrev S1 : Shape := ⟨1, ![1]⟩
abbrev S_ : Shape := ⟨0, ![]⟩
abbrev S65536x4x1 : Shape := ⟨3, ![65536, 4, 1]⟩
abbrev S65536x4x8 : Shape := ⟨3, ![65536, 4, 8]⟩
abbrev S65536x1x8 : Shape := ⟨3, ![65536, 1, 8]⟩
abbrev S65536x8 : Shape := ⟨2, ![65536, 8]⟩
abbrev S65536x8x1 : Shape := ⟨3, ![65536, 8, 1]⟩
abbrev S65536x8x8 : Shape := ⟨3, ![65536, 8, 8]⟩
abbrev S65536x64 : Shape := ⟨2, ![65536, 64]⟩
abbrev S65536x64x1 : Shape := ⟨3, ![65536, 64, 1]⟩
abbrev S65536x64x8 : Shape := ⟨3, ![65536, 64, 8]⟩
abbrev S65536x512 : Shape := ⟨2, ![65536, 512]⟩
abbrev S65536x512x1 : Shape := ⟨3, ![65536, 512, 1]⟩
abbrev S65536x512x8 : Shape := ⟨3, ![65536, 512, 8]⟩
abbrev S65536x4096 : Shape := ⟨2, ![65536, 4096]⟩
abbrev S4096x1 : Shape := ⟨2, ![4096, 1]⟩
abbrev S65536x1 : Shape := ⟨2, ![65536, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S65536x4, .f32⟩
  | .hbm, ⟨1, _⟩ => ⟨S1x4096, .f32⟩
  | .hbm, ⟨2, _⟩ => ⟨S1, .f32⟩
  | .hbm, ⟨3, _⟩ => ⟨S_, .f32⟩
  | .hbm, ⟨4, _⟩ => ⟨S65536x4, .f32⟩
  | .hbm, ⟨5, _⟩ => ⟨S_, .f32⟩
  | .hbm, ⟨6, _⟩ => ⟨S65536x4, .f32⟩
  | .hbm, ⟨7, _⟩ => ⟨S65536x4, .f32⟩
  | .hbm, ⟨8, _⟩ => ⟨S65536x4, .f32⟩
  | .hbm, ⟨9, _⟩ => ⟨S_, .f32⟩
  | .hbm, ⟨10, _⟩ => ⟨S65536x4, .f32⟩
  | .hbm, ⟨11, _⟩ => ⟨S65536x4, .f32⟩
  | .hbm, ⟨12, _⟩ => ⟨S65536x4, .f32⟩
  | .hbm, ⟨13, _⟩ => ⟨S_, .f32⟩
  | .hbm, ⟨14, _⟩ => ⟨S65536x4, .f32⟩
  | .hbm, ⟨15, _⟩ => ⟨S65536x4, .f32⟩
  | .hbm, ⟨16, _⟩ => ⟨S_, .f32⟩
  | .hbm, ⟨17, _⟩ => ⟨S65536x4, .f32⟩
  | .hbm, ⟨18, _⟩ => ⟨S65536x4, .f32⟩
  | .hbm, ⟨19, _⟩ => ⟨S65536x4, .f32⟩
  | .hbm, ⟨20, _⟩ => ⟨S_, .f32⟩
  | .hbm, ⟨21, _⟩ => ⟨S65536x4, .f32⟩
  | .hbm, ⟨22, _⟩ => ⟨S65536x4, .f32⟩
  | .hbm, ⟨23, _⟩ => ⟨S65536x4, .f32⟩
  | .hbm, ⟨24, _⟩ => ⟨S_, .f32⟩
  | .hbm, ⟨25, _⟩ => ⟨S65536x4, .f32⟩
  | .hbm, ⟨26, _⟩ => ⟨S65536x4, .f32⟩
  | .hbm, ⟨27, _⟩ => ⟨S_, .f32⟩
  | .hbm, ⟨28, _⟩ => ⟨S65536x4, .f32⟩
  | .hbm, ⟨29, _⟩ => ⟨S65536x4, .f32⟩
  | .hbm, ⟨30, _⟩ => ⟨S65536x4, .f32⟩
  | .hbm, ⟨31, _⟩ => ⟨S_, .f32⟩
  | .hbm, ⟨32, _⟩ => ⟨S65536x4, .f32⟩
  | .hbm, ⟨33, _⟩ => ⟨S65536x4, .f32⟩
  | .hbm, ⟨34, _⟩ => ⟨S65536x4, .f32⟩
  | .hbm, ⟨35, _⟩ => ⟨S_, .f32⟩
  | .hbm, ⟨36, _⟩ => ⟨S65536x4, .f32⟩
  | .hbm, ⟨37, _⟩ => ⟨S65536x4, .f32⟩
  | .hbm, ⟨38, _⟩ => ⟨S_, .f32⟩
  | .hbm, ⟨39, _⟩ => ⟨S65536x4, .f32⟩
  | .hbm, ⟨40, _⟩ => ⟨S65536x4, .f32⟩
  | .hbm, ⟨41, _⟩ => ⟨S65536x4, .f32⟩
  | .hbm, ⟨42, _⟩ => ⟨S_, .f32⟩
  | .hbm, ⟨43, _⟩ => ⟨S65536x4, .f32⟩
  | .hbm, ⟨44, _⟩ => ⟨S65536x4, .f32⟩
  | .hbm, ⟨45, _⟩ => ⟨S65536x4, .f32⟩
  | .hbm, ⟨46, _⟩ => ⟨S_, .f32⟩
  | .hbm, ⟨47, _⟩ => ⟨S65536x4, .f32⟩
  | .hbm, ⟨48, _⟩ => ⟨S65536x4, .f32⟩
  | .hbm, ⟨49, _⟩ => ⟨S_, .f32⟩
  | .hbm, ⟨50, _⟩ => ⟨S65536x4, .f32⟩
  | .hbm, ⟨51, _⟩ => ⟨S65536x4, .f32⟩
  | .hbm, ⟨52, _⟩ => ⟨S65536x4, .f32⟩
  | .hbm, ⟨53, _⟩ => ⟨S_, .f32⟩
  | .hbm, ⟨54, _⟩ => ⟨S65536x4, .f32⟩
  | .hbm, ⟨55, _⟩ => ⟨S65536x4, .f32⟩
  | .hbm, ⟨56, _⟩ => ⟨S65536x4, .f32⟩
  | .hbm, ⟨57, _⟩ => ⟨S_, .f32⟩
  | .hbm, ⟨58, _⟩ => ⟨S65536x4, .f32⟩
  | .hbm, ⟨59, _⟩ => ⟨S65536x4, .f32⟩
  | .hbm, ⟨60, _⟩ => ⟨S_, .f32⟩
  | .hbm, ⟨61, _⟩ => ⟨S65536x4, .f32⟩
  | .hbm, ⟨62, _⟩ => ⟨S65536x4, .f32⟩
  | .hbm, ⟨63, _⟩ => ⟨S65536x4, .f32⟩
  | .hbm, ⟨64, _⟩ => ⟨S_, .f32⟩
  | .hbm, ⟨65, _⟩ => ⟨S65536x4, .f32⟩
  | .hbm, ⟨66, _⟩ => ⟨S65536x4, .f32⟩
  | .hbm, ⟨67, _⟩ => ⟨S65536x4, .f32⟩
  | .hbm, ⟨68, _⟩ => ⟨S_, .f32⟩
  | .hbm, ⟨69, _⟩ => ⟨S65536x4, .f32⟩
  | .hbm, ⟨70, _⟩ => ⟨S65536x4, .f32⟩
  | .hbm, ⟨71, _⟩ => ⟨S65536x4x1, .f32⟩
  | .hbm, ⟨72, _⟩ => ⟨S65536x4x1, .f32⟩
  | .hbm, ⟨73, _⟩ => ⟨S65536x4x1, .f32⟩
  | .hbm, ⟨74, _⟩ => ⟨S65536x4x1, .f32⟩
  | .hbm, ⟨75, _⟩ => ⟨S65536x4x1, .f32⟩
  | .hbm, ⟨76, _⟩ => ⟨S65536x4x1, .f32⟩
  | .hbm, ⟨77, _⟩ => ⟨S65536x4x1, .f32⟩
  | .hbm, ⟨78, _⟩ => ⟨S65536x4x1, .f32⟩
  | .hbm, ⟨79, _⟩ => ⟨S65536x4x8, .f32⟩
  | .hbm, ⟨80, _⟩ => ⟨S65536x1x8, .f32⟩
  | .hbm, ⟨81, _⟩ => ⟨S65536x8, .f32⟩
  | .hbm, ⟨82, _⟩ => ⟨S65536x8x1, .f32⟩
  | .hbm, ⟨83, _⟩ => ⟨S65536x1x8, .f32⟩
  | .hbm, ⟨84, _⟩ => ⟨S65536x8, .f32⟩
  | .hbm, ⟨85, _⟩ => ⟨S65536x1x8, .f32⟩
  | .hbm, ⟨86, _⟩ => ⟨S65536x8x8, .f32⟩
  | .hbm, ⟨87, _⟩ => ⟨S65536x8x8, .f32⟩
  | .hbm, ⟨88, _⟩ => ⟨S65536x8x8, .f32⟩
  | .hbm, ⟨89, _⟩ => ⟨S65536x64, .f32⟩
  | .hbm, ⟨90, _⟩ => ⟨S65536x64x1, .f32⟩
  | .hbm, ⟨91, _⟩ => ⟨S65536x1x8, .f32⟩
  | .hbm, ⟨92, _⟩ => ⟨S65536x8, .f32⟩
  | .hbm, ⟨93, _⟩ => ⟨S65536x1x8, .f32⟩
  | .hbm, ⟨94, _⟩ => ⟨S65536x64x8, .f32⟩
  | .hbm, ⟨95, _⟩ => ⟨S65536x64x8, .f32⟩
  | .hbm, ⟨96, _⟩ => ⟨S65536x64x8, .f32⟩
  | .hbm, ⟨97, _⟩ => ⟨S65536x512, .f32⟩
  | .hbm, ⟨98, _⟩ => ⟨S65536x512x1, .f32⟩
  | .hbm, ⟨99, _⟩ => ⟨S65536x1x8, .f32⟩
  | .hbm, ⟨100, _⟩ => ⟨S65536x8, .f32⟩
  | .hbm, ⟨101, _⟩ => ⟨S65536x1x8, .f32⟩
  | .hbm, ⟨102, _⟩ => ⟨S65536x512x8, .f32⟩
  | .hbm, ⟨103, _⟩ => ⟨S65536x512x8, .f32⟩
  | .hbm, ⟨104, _⟩ => ⟨S65536x512x8, .f32⟩
  | .hbm, ⟨105, _⟩ => ⟨S65536x4096, .f32⟩
  | .hbm, ⟨106, _⟩ => ⟨S4096x1, .f32⟩
  | .hbm, ⟨107, _⟩ => ⟨S65536x1, .f32⟩
  | .hbm, ⟨108, _⟩ => ⟨S1x1, .f32⟩
  | .hbm, ⟨109, _⟩ => ⟨S65536x1, .f32⟩
  | .hbm, ⟨110, _⟩ => ⟨S65536x1, .f32⟩
  | _, _ => ⟨S65536x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_14 : Ref sig .tc := ⟨.hbm, 57, rfl⟩
abbrev main_v39 : Ref sig .tc := ⟨.hbm, 58, rfl⟩
abbrev main_v40 : Ref sig .tc := ⟨.hbm, 59, rfl⟩
abbrev main_cst_15 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_16 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_17 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]

class Facts₀ : Prop where
  bcast_S_S65536x4 : S_.BroadcastsInDim S65536x4 (![] : Fin 0 → Fin S65536x4.rank)
  bcast_S65536x4_S65536x4x1_0_1 : S65536x4.BroadcastsInDim S65536x4x1 (![0, 1] : Fin 2 → Fin S65536x4x1.rank)
  concatenates_S65536x4x1_S65536x4x1_S65536x4x1_S65536x4x1_S65536x4x1_S65536x4x1_S65536x4x1_S65536x4x1_S65536x4x8_d2 : Shape.Concatenates [S65536x4x1, S65536x4x1, S65536x4x1, S65536x4x1, S65536x4x1, S65536x4x1, S65536x4x1, S65536x4x1] S65536x4x8 2
  slices_S65536x4x8_S65536x1x8_0_0_0 : S65536x4x8.Slices ![0, 0, 0] S65536x1x8
  shapeCasts_S65536x1x8_S65536x8 : S65536x1x8.ShapeCasts S65536x8
  bcast_S65536x8_S65536x8x1_0_1 : S65536x8.BroadcastsInDim S65536x8x1 (![0, 1] : Fin 2 → Fin S65536x8x1.rank)
  slices_S65536x4x8_S65536x1x8_0_1_0 : S65536x4x8.Slices ![0, 1, 0] S65536x1x8
  bcast_S65536x8_S65536x1x8_0_2 : S65536x8.BroadcastsInDim S65536x1x8 (![0, 2] : Fin 2 → Fin S65536x1x8.rank)
  bcast_S65536x8x1_S65536x8x8_0_1_2 : S65536x8x1.BroadcastsInDim S65536x8x8 (![0, 1, 2] : Fin 3 → Fin S65536x8x8.rank)
  bcast_S65536x1x8_S65536x8x8_0_1_2 : S65536x1x8.BroadcastsInDim S65536x8x8 (![0, 1, 2] : Fin 3 → Fin S65536x8x8.rank)
  shapeCasts_S65536x8x8_S65536x64 : S65536x8x8.ShapeCasts S65536x64
  bcast_S65536x64_S65536x64x1_0_1 : S65536x64.BroadcastsInDim S65536x64x1 (![0, 1] : Fin 2 → Fin S65536x64x1.rank)
  slices_S65536x4x8_S65536x1x8_0_2_0 : S65536x4x8.Slices ![0, 2, 0] S65536x1x8
  bcast_S65536x64x1_S65536x64x8_0_1_2 : S65536x64x1.BroadcastsInDim S65536x64x8 (![0, 1, 2] : Fin 3 → Fin S65536x64x8.rank)
  bcast_S65536x1x8_S65536x64x8_0_1_2 : S65536x1x8.BroadcastsInDim S65536x64x8 (![0, 1, 2] : Fin 3 → Fin S65536x64x8.rank)
  shapeCasts_S65536x64x8_S65536x512 : S65536x64x8.ShapeCasts S65536x512
  bcast_S65536x512_S65536x512x1_0_1 : S65536x512.BroadcastsInDim S65536x512x1 (![0, 1] : Fin 2 → Fin S65536x512x1.rank)
  slices_S65536x4x8_S65536x1x8_0_3_0 : S65536x4x8.Slices ![0, 3, 0] S65536x1x8
  bcast_S65536x512x1_S65536x512x8_0_1_2 : S65536x512x1.BroadcastsInDim S65536x512x8 (![0, 1, 2] : Fin 3 → Fin S65536x512x8.rank)
  bcast_S65536x1x8_S65536x512x8_0_1_2 : S65536x1x8.BroadcastsInDim S65536x512x8 (![0, 1, 2] : Fin 3 → Fin S65536x512x8.rank)
  shapeCasts_S65536x512x8_S65536x4096 : S65536x512x8.ShapeCasts S65536x4096
  transposes_S1x4096_S4096x1_1_0 : S1x4096.Transposes [1, 0] S4096x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x4096_S4096x1_S65536x1_1_0_0_1_n_n_wf : DotDims.WF S65536x4096 S4096x1 S65536x1 [1] [0] [0] [1] [] []

variable [Facts₀]

def dot_S65536x4096_S4096x1_S65536x1_1_0_0_1_n_n : DotDims S65536x4096 S4096x1 S65536x1 where
  lhsContracting := [1]
  rhsContracting := [0]
  lhsNonContracting := [0]
  rhsNonContracting := [1]
  lhsBatch := []
  rhsBatch := []
  wf := dot_S65536x4096_S4096x1_S65536x1_1_0_0_1_n_n_wf

class Facts : Prop extends Facts₀ where

variable [Facts]
-- ==== Proof.Spec.lean ====
/-
  The mathematics both programs compute, stated once over the argument arrays as extended-real functions.

  For a sample `n` with coordinates `x₀ x₁ x₂ x₃` (row `n` of the `[65536, 4]` input), both programs evaluate the
  Legendre polynomials `P₀ … P₇` at each coordinate by Bonnet's recurrence, grouped exactly as
  `P_{k+1} = (((2k+1)·x)·P_k − k·P_{k−1}) / (k+1)` with the float literals `1, 2, 3, …, 13` (`leg`), and return the
  linear form `Σ_f (P_{d₀}(x₀)·P_{d₁}(x₁)·P_{d₂}(x₂)·P_{d₃}(x₃)) · W[0, f] + b[0]` over the 4096 digit strings
  `f = d₀d₁d₂d₃` in base 8.

  `refAt` is that sum as one sum over `f` with the product grouped from the left — the arrangement of the plain
  jnp program; `kerAt` is the arrangement of the blocked program: the 4096 features factor as 64 × 64, the inner
  sum contracts the weights with the products of the last two coordinates (one matrix product), and the outer sum
  contracts the result with the products of the first two coordinates. The two arrangements agree whenever the
  coordinates and the weights are finite (distributivity of the extended reals needs that); Algebra.lean proves it.
-/
import Idealize.ShloMosaic.PureOps.Ideal
import Idealize.ShloMosaic.Lib.ValueIdx

noncomputable section

namespace Cert.Legendre

open Idealize.ShloMosaic Idealize.ShloMosaic.ValueIdx

/-- The shapes of the three arguments and of the result. -/
abbrev SX : Shape := ⟨2, ![65536, 4]⟩
abbrev SW : Shape := ⟨2, ![1, 4096]⟩
abbrev SB : Shape := ⟨1, ![1]⟩
abbrev SO : Shape := ⟨2, ![65536, 1]⟩

/-- A float literal of the programs, as the extended real its pattern denotes. -/
def lit (w : BitVec 32) : EReal := Ideal.ofBits .f32 w

/-- One step of Bonnet's recurrence with literal coefficients `a, b, d`: `((a·x)·p − b·q) / d`. -/
def step (a b d : BitVec 32) (x p q : EReal) : EReal :=
  Ideal.div ((lit a * x) * p - lit b * q) (lit d)

/-- `P₀ = 1`. -/
def P0 : EReal := lit 0x3F800000#32
/-- `P₂ = ((3x)x − 1·P₀)/2`. -/
def P2 (x : EReal) : EReal := step 0x40400000#32 0x3F800000#32 0x40000000#32 x x P0
/-- `P₃ = ((5x)P₂ − 2x)/3`. -/
def P3 (x : EReal) : EReal := step 0x40A00000#32 0x40000000#32 0x40400000#32 x (P2 x) x
/-- `P₄ = ((7x)P₃ − 3P₂)/4`. -/
def P4 (x : EReal) : EReal := step 0x40E00000#32 0x40400000#32 0x40800000#32 x (P3 x) (P2 x)
/-- `P₅ = ((9x)P₄ − 4P₃)/5`. -/
def P5 (x : EReal) : EReal := step 0x41100000#32 0x40800000#32 0x40A00000#32 x (P4 x) (P3 x)
/-- `P₆ = ((11x)P₅ − 5P₄)/6`. -/
def P6 (x : EReal) : EReal := step 0x41300000#32 0x40A00000#32 0x40C00000#32 x (P5 x) (P4 x)
/-- `P₇ = ((13x)P₆ − 6P₅)/7`. -/
def P7 (x : EReal) : EReal := step 0x41500000#32 0x40C00000#32 0x40E00000#32 x (P6 x) (P5 x)

/-- The eight Legendre values at `x`, by degree (zero past degree 7, where nothing reads it). -/
def leg (x : EReal) : ℕ → EReal
  | 0 => P0
  | 1 => x
  | 2 => P2 x
  | 3 => P3 x
  | 4 => P4 x
  | 5 => P5 x
  | 6 => P6 x
  | 7 => P7 x
  | _ => 0

/-- The weight of feature `f` (zero past the 4096 features, where nothing reads it). -/
def wAt (W : SW.Idx → EReal) (f : ℕ) : EReal :=
  if h : f < 4096 then W (ix2 (0 : Fin 1) (⟨f, h⟩ : Fin 4096)) else 0

/-- The product of the Legendre values of two coordinates `p, q` for the two-digit string `r` in base 8. -/
def pair (p q : EReal) (r : ℕ) : EReal := leg p (r / 8) * leg q (r % 8)

/-- Feature `f` of a sample with coordinates `x₀ x₁ x₂ x₃`: the product over the four base-8 digits of `f`, most
    significant first, grouped from the left. -/
def feat (x0 x1 x2 x3 : EReal) (f : ℕ) : EReal :=
  ((leg x0 (f / 8 / 8 / 8) * leg x1 (f / 8 / 8 % 8)) * leg x2 (f / 8 % 8)) * leg x3 (f % 8)

/-- The plain arrangement at sample `n`: one sum over the 4096 features, plus the bias. -/
def refAt (x : SX.Idx → EReal) (W : SW.Idx → EReal) (b : SB.Idx → EReal) (n : Fin 65536) : EReal :=
  (∑ f : Fin 4096, feat (x (ix2 n (0 : Fin 4))) (x (ix2 n (1 : Fin 4))) (x (ix2 n (2 : Fin 4))) (x (ix2 n (3 : Fin 4))) f.val
      * wAt W f.val)
    + b (ix1 (0 : Fin 1))

/-- The blocked arrangement at sample `n`: `Σ_r A_r · (Σ_k W[64r + k] · B_k)`, plus the bias. -/
def kerAt (x : SX.Idx → EReal) (W : SW.Idx → EReal) (b : SB.Idx → EReal) (n : Fin 65536) : EReal :=
  (∑ r : Fin 64, pair (x (ix2 n (0 : Fin 4))) (x (ix2 n (1 : Fin 4))) r.val
      * (∑ k : Fin 64, wAt W (64 * r.val + k.val) * pair (x (ix2 n (2 : Fin 4))) (x (ix2 n (3 : Fin 4))) k.val))
    + b (ix1 (0 : Fin 1))

/-- The result array of the plain arrangement: entry `(n, 0)` is `refAt … n`. -/
def G (x : SX.Idx → EReal) (W : SW.Idx → EReal) (b : SB.Idx → EReal) : SO.Idx → EReal :=
  fun i => refAt x W b (i 0)

end Cert.Legendre

end
-- ==== Proof.Consts.lean ====
/-
  The float literals of the two programs and of the precondition, as the extended reals their patterns denote.

  Bonnet's recurrence  P_{k+1} = ((2k+1)·x·P_k − k·P_{k−1}) / (k+1)  for k = 1 … 6 spells the coefficients
  1, 2, 3, 4, 5, 6, 7, 9, 11, 13 as single-precision patterns; each has a zero fraction field below its leading bits
  and denotes exactly that integer. The precondition compares absolute values against the pattern with an all-ones
  exponent and zero fraction, which denotes +∞. All patterns are evaluated here, once, so that the modules that use
  them never unfold the reading of a pattern themselves.
-/
import Idealize.ShloMosaic.PureOps.Ideal

noncomputable section

namespace Cert.Legendre.Consts

open Idealize.ShloMosaic

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_six : Ideal.ofBits .f32 0x40C00000#32 = ((6 : ℝ) : EReal) := by
  simp [Ideal.ofBits, Ideal.ieee, -EReal.coe_mul]; norm_num
theorem ofBits_seven : Ideal.ofBits .f32 0x40E00000#32 = ((7 : ℝ) : EReal) := by
  simp [Ideal.ofBits, Ideal.ieee, -EReal.coe_mul]; norm_num
theorem ofBits_nine : Ideal.ofBits .f32 0x41100000#32 = ((9 : ℝ) : EReal) := by
  simp [Ideal.ofBits, Ideal.ieee, -EReal.coe_mul]; norm_num
theorem ofBits_eleven : Ideal.ofBits .f32 0x41300000#32 = ((11 : ℝ) : EReal) := by
  simp [Ideal.ofBits, Ideal.ieee, -EReal.coe_mul]; norm_num
theorem ofBits_thirteen : Ideal.ofBits .f32 0x41500000#32 = ((13 : ℝ) : EReal) := by
  simp [Ideal.ofBits, Ideal.ieee, -EReal.coe_mul]; norm_num

/-- The all-ones exponent with a zero fraction denotes `+∞`. -/
theorem ofBits_inf : Ideal.ofBits .f32 0x7F800000#32 = (⊤ : EReal) := by
  simp [Ideal.ofBits, Ideal.ieee]

end Cert.Legendre.Consts

end
-- ==== Proof.Algebra.lean ====
/-
  The two arrangements of the Legendre feature sum agree on finite data.

  Both sides are polynomial expressions in the four coordinates of a sample and in the 4096 weights. Over the
  reals the blocked side  Σ_r A_r · (Σ_k w_{64r+k} · C_k)  becomes the plain side  Σ_f (A_{f/64} · C_{f%64}) · w_f  by
  distributing A_r over the inner sum and reading the pair (r, k) as the single index f = 64·r + k; the four
  base-8 digits of f are then the two digits of r followed by the two digits of k. On the extended reals the
  distributive law holds only away from the infinities, so the proof first shows that every quantity involved is
  a real number: the float literals 1, 2, …, 13 of Bonnet's recurrence are reals and its divisors 2, …, 7 are
  nonzero, so each Legendre value of a real coordinate is a real; a weight is a real by hypothesis. The identity
  is then the image of the real identity under the coercion, which commutes with products and finite sums. The
  bias is added to both sides unchanged and need not be finite.
-/
import proofs.«158878_j79431125172612_2_alg».proof.Proof.Spec
import proofs.«158878_j79431125172612_2_alg».proof.Proof.Consts
import Mathlib

noncomputable section

namespace Cert.Legendre

open Idealize.ShloMosaic Idealize.ShloMosaic.ValueIdx

/-! ### The literals of the recurrence are real numbers -/

theorem lit_one : lit 0x3F800000#32 = ((1 : ℝ) : EReal) := Consts.ofBits_one
theorem lit_two : lit 0x40000000#32 = ((2 : ℝ) : EReal) := Consts.ofBits_two
theorem lit_three : lit 0x40400000#32 = ((3 : ℝ) : EReal) := Consts.ofBits_three
theorem lit_four : lit 0x40800000#32 = ((4 : ℝ) : EReal) := Consts.ofBits_four
theorem lit_five : lit 0x40A00000#32 = ((5 : ℝ) : EReal) := Consts.ofBits_five
theorem lit_six : lit 0x40C00000#32 = ((6 : ℝ) : EReal) := Consts.ofBits_six
theorem lit_seven : lit 0x40E00000#32 = ((7 : ℝ) : EReal) := Consts.ofBits_seven
theorem lit_nine : lit 0x41100000#32 = ((9 : ℝ) : EReal) := Consts.ofBits_nine
theorem lit_eleven : lit 0x41300000#32 = ((11 : ℝ) : EReal) := Consts.ofBits_eleven
theorem lit_thirteen : lit 0x41500000#32 = ((13 : ℝ) : EReal) := Consts.ofBits_thirteen

/-! ### Every Legendre value of a real coordinate is a real -/

/-- An extended real that is a real number. -/
def IsReal (z : EReal) : Prop := ∃ r : ℝ, z = (r : EReal)

theorem isReal_coe (r : ℝ) : IsReal (r : EReal) := ⟨r, rfl⟩

theorem isReal_zero : IsReal 0 := ⟨0, EReal.coe_zero.symm⟩

theorem IsReal.mul {y z : EReal} (hy : IsReal y) (hz : IsReal z) : IsReal (y * z) := by
  obtain ⟨r, rfl⟩ := hy
  obtain ⟨s, rfl⟩ := hz
  exact ⟨r * s, (EReal.coe_mul r s).symm⟩

/-- One step of the recurrence with real coefficients, a nonzero real divisor and real arguments is a real. -/
theorem step_isReal {a b d : BitVec 32} {α β δ : ℝ} (ha : lit a = (α : EReal)) (hb : lit b = (β : EReal))
    (hd : lit d = (δ : EReal)) (hδ : δ ≠ 0) {x p q : EReal} (hx : IsReal x) (hp : IsReal p) (hq : IsReal q) :
    IsReal (step a b d x p q) := by
  obtain ⟨x, rfl⟩ := hx
  obtain ⟨p, rfl⟩ := hp
  obtain ⟨q, rfl⟩ := hq
  refine ⟨(α * x * p - β * q) * (1 / δ), ?_⟩
  rw [step, ha, hb, hd, Ideal.div_coe hδ, ← EReal.coe_mul, ← EReal.coe_mul, ← EReal.coe_mul, ← EReal.coe_sub,
    ← EReal.coe_mul]

theorem P0_isReal : IsReal P0 := ⟨1, lit_one⟩

theorem P2_isReal {x : EReal} (hx : IsReal x) : IsReal (P2 x) :=
  step_isReal lit_three lit_one lit_two (by norm_num) hx hx P0_isReal

theorem P3_isReal {x : EReal} (hx : IsReal x) : IsReal (P3 x) :=
  step_isReal lit_five lit_two lit_three (by norm_num) hx (P2_isReal hx) hx

theorem P4_isReal {x : EReal} (hx : IsReal x) : IsReal (P4 x) :=
  step_isReal lit_seven lit_three lit_four (by norm_num) hx (P3_isReal hx) (P2_isReal hx)

theorem P5_isReal {x : EReal} (hx : IsReal x) : IsReal (P5 x) :=
  step_isReal lit_nine lit_four lit_five (by norm_num) hx (P4_isReal hx) (P3_isReal hx)

theorem P6_isReal {x : EReal} (hx : IsReal x) : IsReal (P6 x) :=
  step_isReal lit_eleven lit_five lit_six (by norm_num) hx (P5_isReal hx) (P4_isReal hx)

theorem P7_isReal {x : EReal} (hx : IsReal x) : IsReal (P7 x) :=
  step_isReal lit_thirteen lit_six lit_seven (by norm_num) hx (P6_isReal hx) (P5_isReal hx)

/-- All eight Legendre values of a real coordinate, and the zero past degree 7, are reals. -/
theorem leg_isReal {x : EReal} (hx : IsReal x) : ∀ j : ℕ, IsReal (leg x j)
  | 0 => P0_isReal
  | 1 => hx
  | 2 => P2_isReal hx
  | 3 => P3_isReal hx
  | 4 => P4_isReal hx
  | 5 => P5_isReal hx
  | 6 => P6_isReal hx
  | 7 => P7_isReal hx
  | (_ + 8) => isReal_zero

/-- A weight is a real when every entry of the weight array is; past the 4096 features it is zero. -/
theorem wAt_isReal {W : SW.Idx → EReal} (hW : ∀ i, ∃ r : ℝ, W i = (r : EReal)) (f : ℕ) : IsReal (wAt W f) := by
  unfold wAt
  split
  · exact hW _
  · exact isReal_zero

/-! ### The law over the reals -/

/-- The coercion of the reals into the extended reals commutes with finite sums. -/
theorem coe_finsum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- Over the reals the blocked sum is the plain sum: distribute the outer factor over the inner sum, and read the
    pair `(r, k)` as the index `f = 64·r + k`, whose base-8 digits are those of `r` followed by those of `k`. -/
theorem blocked_eq_plain (l0 l1 l2 l3 w : ℕ → ℝ) :
    (∑ r : Fin 64, (l0 (r.val / 8) * l1 (r.val % 8))
        * (∑ k : Fin 64, w (64 * r.val + k.val) * (l2 (k.val / 8) * l3 (k.val % 8))))
      = ∑ f : Fin 4096, (((l0 (f.val / 8 / 8 / 8) * l1 (f.val / 8 / 8 % 8)) * l2 (f.val / 8 % 8)) * l3 (f.val % 8))
          * w f.val := by
  rw [← Equiv.sum_comp (finProdFinEquiv : Fin 64 × Fin 64 ≃ Fin 4096), Fintype.sum_prod_type]
  refine Finset.sum_congr rfl fun r _ => ?_
  rw [Finset.mul_sum]
  refine Finset.sum_congr rfl fun k _ => ?_
  have hk := k.isLt
  have hv : ((finProdFinEquiv (r, k) : Fin 4096) : ℕ) = k.val + 64 * r.val := rfl
  rw [hv]
  have e0 : (k.val + 64 * r.val) / 8 / 8 / 8 = r.val / 8 := by omega
  have e1 : (k.val + 64 * r.val) / 8 / 8 % 8 = r.val % 8 := by omega
  have e2 : (k.val + 64 * r.val) / 8 % 8 = k.val / 8 := by omega
  have e3 : (k.val + 64 * r.val) % 8 = k.val % 8 := by omega
  have e4 : k.val + 64 * r.val = 64 * r.val + k.val := by omega
  rw [e0, e1, e2, e3, e4]
  ring

/-! ### The law on the extended reals, for finite coordinates and weights -/

/-- The blocked arrangement equals the plain arrangement at every sample, when the coordinates and the weights are
    finite. -/
theorem kerAt_eq_refAt (x : SX.Idx → EReal) (W : SW.Idx → EReal) (b : SB.Idx → EReal)
    (hx : ∀ i, ∃ r : ℝ, x i = (r : EReal)) (hW : ∀ i, ∃ r : ℝ, W i = (r : EReal)) (n : Fin 65536) :
    kerAt x W b n = refAt x W b n := by
  choose l0 h0 using leg_isReal (hx (ix2 n (0 : Fin 4)))
  choose l1 h1 using leg_isReal (hx (ix2 n (1 : Fin 4)))
  choose l2 h2 using leg_isReal (hx (ix2 n (2 : Fin 4)))
  choose l3 h3 using leg_isReal (hx (ix2 n (3 : Fin 4)))
  choose w hw using wAt_isReal hW
  unfold kerAt refAt pair feat
  simp only [h0, h1, h2, h3, hw, ← EReal.coe_mul, coe_finsum]
  rw [blocked_eq_plain l0 l1 l2 l3 w]

end Cert.Legendre

end
-- ==== Proof.Finite.lean ====
/-
  The precondition says every input is finite; here that statement is read back from the printed predicate.

  The predicate is the conjunction of three tests, one per argument array, each of the form
  "every entry z of the array satisfies max z (−z) < +∞" (an absolute value compared with the float pattern of
  +∞, folded over the array by logical and, starting from true). A fold by and that comes out true met only
  true entries, so each entry z has max z (−z) < +∞. An extended real is −∞, +∞ or a real number; at −∞ and at
  +∞ the maximum of z and −z is +∞, which is not below +∞, so z is a real number. Only the coordinates and the
  weights are needed downstream; the test on the bias is dropped.
-/
import proofs.«158878_j79431125172612_2_alg».proof.Pre_finite_inputs
import proofs.«158878_j79431125172612_2_alg».proof.Proof.Consts
import Idealize.ShloMosaic.Lib.ReduceAll
import Idealize.ShloMosaic.PureOps.Ideal

noncomputable section

namespace Cert.Legendre.Finite

open Idealize.ShloMosaic

/-- The rank-zero shape has one index. -/
instance : Subsingleton Cert.Pre_finite_inputs.S_.Idx := ⟨fun a b => funext fun d => d.elim0⟩

/-- An extended real whose absolute value `max z (−z)` tests as below `+∞` is a real number. -/
theorem real_of_abs_lt_inf (z : EReal)
    (h : Ideal.cmp .olt (max z (-z)) (Ideal.ofBits .f32 0x7F800000#32) = 1#1) : ∃ r : ℝ, z = (r : EReal) := by
  rw [Consts.ofBits_inf] at h
  induction z using EReal.rec with
  | bot => simp [Ideal.cmp] at h
  | coe r => exact ⟨r, rfl⟩
  | top => simp [Ideal.cmp] at h

/-- Under the precondition every coordinate and every weight is a real number. -/
theorem finite_of_pre [Cert.Pre_finite_inputs.Facts] (x : FVec Ideal Cert.Pre_finite_inputs.S65536x4 .f32)
    (W : FVec Ideal Cert.Pre_finite_inputs.S1x4096 .f32) (b : FVec Ideal Cert.Pre_finite_inputs.S1 .f32)
    (h : Cert.Pre_finite_inputs.fn (F := Ideal) x W b = fun _ => 1#1) :
    (∀ i, ∃ r : ℝ, x i = (r : EReal)) ∧ (∀ i, ∃ r : ℝ, W i = (r : EReal)) := by
  have e := congrFun h (fun a => a.elim0)
  dsimp only [Cert.Pre_finite_inputs.fn] at e
  simp only [andi, IntOp.andi_eq_one] at e
  obtain ⟨⟨ex, eW⟩, -⟩ := e
  exact ⟨fun i => real_of_abs_lt_inf _ (Host.reduce_andi_all _ _ _ _ _ ex i),
    fun i => real_of_abs_lt_inf _ (Host.reduce_andi_all _ _ _ _ _ eW i)⟩

end Cert.Legendre.Finite

end
-- ==== Proof.RefLegendre.lean ====
/-
  The plain program's first forty-nine operations are Bonnet's recurrence, element by element.

  Every one of them is pointwise over the `[65536, 4]` input: a literal broadcast to the whole array, a product,
  a difference or a quotient of earlier arrays. Reading them at an arbitrary index `i` therefore gives, for the
  entry `t = x i`, exactly the nested expression `((a·t)·P_k − b·P_{k−1}) / d` that the specification calls `step`,
  with the same literals in the same places. The seven statements below follow the recurrence in its own order;
  each one rewrites with the previous ones, so no expression is ever opened twice.
-/
import proofs.«158878_j79431125172612_2_alg».proof.Proof.Gen.ReferenceIdeal.Read
import proofs.«158878_j79431125172612_2_alg».proof.Proof.Spec

noncomputable section

namespace Cert.ReferenceIdeal.RefValue

open Cert.ReferenceIdeal Cert.ReferenceIdeal.Gen Cert.ReferenceIdeal.Read Cert.Legendre
open Idealize.ShloMosaic Idealize.ShloMosaic.ValueIdx

/-- The input array of the plain program, as the function of its index it is. -/
abbrev XArr : Type := (⟨S65536x4, .f32⟩ : BufTy).Contents (Elt Ideal)

/-- The constant array of ones is `P₀` everywhere. -/
theorem v0_eq (i : S65536x4.Idx) : val_main_v0 (F := Ideal) i = P0 := by
  rw [val_main_v0_apply, val_main_cst_apply]
  rfl

/-- `P₂` at every entry: `((3t)t − 1·P₀)/2`. -/
theorem v8_eq (x : XArr) (i : S65536x4.Idx) : val_main_v8 (F := Ideal) x i = P2 (x i) := by
  rw [val_main_v8_apply, val_main_v6_apply, val_main_v3_apply, val_main_v2_apply, val_main_v1_apply,
    val_main_cst_0_apply, val_main_v5_apply, val_main_v4_apply, val_main_cst_1_apply, v0_eq,
    val_main_v7_apply, val_main_cst_2_apply]
  rfl

/-- `P₃` at every entry: `((5t)P₂ − 2t)/3`. -/
theorem v16_eq (x : XArr) (i : S65536x4.Idx) : val_main_v16 (F := Ideal) x i = P3 (x i) := by
  rw [val_main_v16_apply, val_main_v14_apply, val_main_v11_apply, val_main_v10_apply, val_main_v9_apply,
    val_main_cst_3_apply, v8_eq, val_main_v13_apply, val_main_v12_apply, val_main_cst_4_apply,
    val_main_v15_apply, val_main_cst_5_apply]
  rfl

/-- `P₄` at every entry: `((7t)P₃ − 3P₂)/4`. -/
theorem v24_eq (x : XArr) (i : S65536x4.Idx) : val_main_v24 (F := Ideal) x i = P4 (x i) := by
  rw [val_main_v24_apply, val_main_v22_apply, val_main_v19_apply, val_main_v18_apply, val_main_v17_apply,
    val_main_cst_6_apply, v16_eq, val_main_v21_apply, val_main_v20_apply, val_main_cst_7_apply, v8_eq,
    val_main_v23_apply, val_main_cst_8_apply]
  rfl

/-- `P₅` at every entry: `((9t)P₄ − 4P₃)/5`. -/
theorem v32_eq (x : XArr) (i : S65536x4.Idx) : val_main_v32 (F := Ideal) x i = P5 (x i) := by
  rw [val_main_v32_apply, val_main_v30_apply, val_main_v27_apply, val_main_v26_apply, val_main_v25_apply,
    val_main_cst_9_apply, v24_eq, val_main_v29_apply, val_main_v28_apply, val_main_cst_10_apply, v16_eq,
    val_main_v31_apply, val_main_cst_11_apply]
  rfl

/-- `P₆` at every entry: `((11t)P₅ − 5P₄)/6`. -/
theorem v40_eq (x : XArr) (i : S65536x4.Idx) : val_main_v40 (F := Ideal) x i = P6 (x i) := by
  rw [val_main_v40_apply, val_main_v38_apply, val_main_v35_apply, val_main_v34_apply, val_main_v33_apply,
    val_main_cst_12_apply, v32_eq, val_main_v37_apply, val_main_v36_apply, val_main_cst_13_apply, v24_eq,
    val_main_v39_apply, val_main_cst_14_apply]
  rfl

/-- `P₇` at every entry: `((13t)P₆ − 6P₅)/7`. -/
theorem v48_eq (x : XArr) (i : S65536x4.Idx) : val_main_v48 (F := Ideal) x i = P7 (x i) := by
  rw [val_main_v48_apply, val_main_v46_apply, val_main_v43_apply, val_main_v42_apply, val_main_v41_apply,
    val_main_cst_15_apply, v40_eq, val_main_v45_apply, val_main_v44_apply, val_main_cst_16_apply, v32_eq,
    val_main_v47_apply, val_main_cst_17_apply]
  rfl

end Cert.ReferenceIdeal.RefValue

end
-- ==== Proof.RefTable.lean ====
/-
  The table of Legendre values and its four rows.

  The plain program stacks the eight arrays `P₀(x), x, P₂(x), …, P₇(x)` (each with a trailing axis of extent one)
  along that trailing axis into a `[65536, 4, 8]` table: entry `(n, d, j)` is the degree-`j` value at coordinate `d`
  of sample `n`. A joined array at an index is the piece whose span along the joined axis holds the index; here
  every piece has extent one, so piece `j` is read at `(n, d, 0)`, and the pieces before it contribute `j` to the
  offset. The program then cuts the table into its four coordinate rows (a slice of extent one on the middle axis,
  and a reshape that drops that axis): row `d` at `(n, j)` is the table at `(n, d, j)`.
-/
import proofs.«158878_j79431125172612_2_alg».proof.Proof.RefLegendre

noncomputable section

namespace Cert.ReferenceIdeal.RefValue

open Cert.ReferenceIdeal Cert.ReferenceIdeal.Gen Cert.ReferenceIdeal.Read Cert.Legendre
open Idealize.ShloMosaic Idealize.ShloMosaic.ValueIdx

/-- Two rank-2 indices with the same coordinates are equal. -/
theorem idx2_ext {n0 n1 : Nat} {f g : (⟨2, ![n0, n1]⟩ : Shape).Idx} (h0 : f 0 = g 0) (h1 : f 1 = g 1) : f = g := by
  funext a
  match a with
  | ⟨0, _⟩ => exact h0
  | ⟨1, _⟩ => exact h1

/-- Two rank-3 indices with the same coordinates are equal. -/
theorem idx3_ext {n0 n1 n2 : Nat} {f g : (⟨3, ![n0, n1, n2]⟩ : Shape).Idx} (h0 : f 0 = g 0) (h1 : f 1 = g 1)
    (h2 : f 2 = g 2) : f = g := by
  funext a
  match a with
  | ⟨0, _⟩ => exact h0
  | ⟨1, _⟩ => exact h1
  | ⟨2, _⟩ => exact h2

/-- A piece of the table at `(n, d, 0)` reads its `[65536, 4]` source at `(n, d)`: the index map of the eight
    broadcasts that append the trailing axis. -/
theorem unit_axis_idx (n : Fin 65536) (d : Fin 4) (g : S65536x4x1.Idx → S65536x4.Idx)
    (g0 : ∀ i, (g i 0).val = (i 0).val) (g1 : ∀ i, (g i 1).val = (i 1).val) :
    g (ix3 n d (0 : Fin 1)) = ix2 n d := idx2_ext (Fin.ext (g0 _)) (Fin.ext (g1 _))

/-- The side conditions of reading piece `k` of the table at `(n, d, 0)` for the index `(n, d, k)`: the coordinates
    off the joined axis agree. -/
theorem piece_off_axis (n : Fin 65536) (d : Fin 4) (j : Fin 8) (hr : S65536x4x1.rank = S65536x4x8.rank) :
    ∀ b : Fin S65536x4x1.rank, b.cast hr ≠ (2 : Fin S65536x4x8.rank) →
      ((ix3 n d (0 : Fin 1) : S65536x4x1.Idx) b).val = ((ix3 n d j : S65536x4x8.Idx) (b.cast hr)).val := by
  intro b hb
  match b with
  | ⟨0, _⟩ => rfl
  | ⟨1, _⟩ => rfl
  | ⟨2, _⟩ => exact absurd rfl hb

/-- The table: entry `(n, d, j)` is the degree-`j` Legendre value at coordinate `d` of sample `n`. -/
theorem v57_eq (x : XArr) (n : Fin 65536) (d : Fin 4) (j : Fin 8) :
    val_main_v57 (F := Ideal) x (ix3 n d j) = leg (x (ix2 n d)) j.val := by
  unfold val_main_v57
  match j with
  | ⟨0, h⟩ =>
    refine (concatenate_apply_piece (2 : Fin S65536x4x8.rank) _ _ (ix3 n d ⟨0, h⟩) 0 (by show 0 < 8; decide) S65536x4x1 _ rfl rfl
      0 rfl (ix3 n d (0 : Fin 1)) (piece_off_axis n d ⟨0, h⟩ rfl) rfl).trans ?_
    rw [val_main_v49_apply, v0_eq]
    rfl
  | ⟨1, h⟩ =>
    refine (concatenate_apply_piece (2 : Fin S65536x4x8.rank) _ _ (ix3 n d ⟨1, h⟩) 1 (by show 1 < 8; decide) S65536x4x1 _ rfl rfl
      1 rfl (ix3 n d (0 : Fin 1)) (piece_off_axis n d ⟨1, h⟩ rfl) rfl).trans ?_
    rw [val_main_v50_apply, unit_axis_idx n d idx_main_v50 (fun _ => rfl) (fun _ => rfl)]
    rfl
  | ⟨2, h⟩ =>
    refine (concatenate_apply_piece (2 : Fin S65536x4x8.rank) _ _ (ix3 n d ⟨2, h⟩) 2 (by show 2 < 8; decide) S65536x4x1 _ rfl rfl
      2 rfl (ix3 n d (0 : Fin 1)) (piece_off_axis n d ⟨2, h⟩ rfl) rfl).trans ?_
    rw [val_main_v51_apply, v8_eq, unit_axis_idx n d idx_main_v51 (fun _ => rfl) (fun _ => rfl)]
    rfl
  | ⟨3, h⟩ =>
    refine (concatenate_apply_piece (2 : Fin S65536x4x8.rank) _ _ (ix3 n d ⟨3, h⟩) 3 (by show 3 < 8; decide) S65536x4x1 _ rfl rfl
      3 rfl (ix3 n d (0 : Fin 1)) (piece_off_axis n d ⟨3, h⟩ rfl) rfl).trans ?_
    rw [val_main_v52_apply, v16_eq, unit_axis_idx n d idx_main_v52 (fun _ => rfl) (fun _ => rfl)]
    rfl
  | ⟨4, h⟩ =>
    refine (concatenate_apply_piece (2 : Fin S65536x4x8.rank) _ _ (ix3 n d ⟨4, h⟩) 4 (by show 4 < 8; decide) S65536x4x1 _ rfl rfl
      4 rfl (ix3 n d (0 : Fin 1)) (piece_off_axis n d ⟨4, h⟩ rfl) rfl).trans ?_
    rw [val_main_v53_apply, v24_eq, unit_axis_idx n d idx_main_v53 (fun _ => rfl) (fun _ => rfl)]
    rfl
  | ⟨5, h⟩ =>
    refine (concatenate_apply_piece (2 : Fin S65536x4x8.rank) _ _ (ix3 n d ⟨5, h⟩) 5 (by show 5 < 8; decide) S65536x4x1 _ rfl rfl
      5 rfl (ix3 n d (0 : Fin 1)) (piece_off_axis n d ⟨5, h⟩ rfl) rfl).trans ?_
    rw [val_main_v54_apply, v32_eq, unit_axis_idx n d idx_main_v54 (fun _ => rfl) (fun _ => rfl)]
    rfl
  | ⟨6, h⟩ =>
    refine (concatenate_apply_piece (2 : Fin S65536x4x8.rank) _ _ (ix3 n d ⟨6, h⟩) 6 (by show 6 < 8; decide) S65536x4x1 _ rfl rfl
      6 rfl (ix3 n d (0 : Fin 1)) (piece_off_axis n d ⟨6, h⟩ rfl) rfl).trans ?_
    rw [val_main_v55_apply, v40_eq, unit_axis_idx n d idx_main_v55 (fun _ => rfl) (fun _ => rfl)]
    rfl
  | ⟨7, h⟩ =>
    refine (concatenate_apply_piece (2 : Fin S65536x4x8.rank) _ _ (ix3 n d ⟨7, h⟩) 7 (by show 7 < 8; decide) S65536x4x1 _ rfl rfl
      7 rfl (ix3 n d (0 : Fin 1)) (piece_off_axis n d ⟨7, h⟩ rfl) rfl).trans ?_
    rw [val_main_v56_apply, v48_eq, unit_axis_idx n d idx_main_v56 (fun _ => rfl) (fun _ => rfl)]
    rfl

/-- Row `d` of the table at `(n, j)`, through the reshape `r` that drops the middle axis and the slice `g` at offset
    `d`: the flat position `8n + j` splits back into `(n, j)`. -/
theorem row_idx (n : Fin 65536) (j : Fin 8) (d : Fin 4)
    (r : S65536x8.Idx → S65536x1x8.Idx) (g : S65536x1x8.Idx → S65536x4x8.Idx)
    (r0 : ∀ i, (r i 0).val = ((i 0).val * 8 + (i 1).val) / 8)
    (r2 : ∀ i, (r i 2).val = ((i 0).val * 8 + (i 1).val) % 8)
    (g0 : ∀ i, (g i 0).val = (i 0).val) (g1 : ∀ i, (g i 1).val = d.val + (i 1).val)
    (g2 : ∀ i, (g i 2).val = (i 2).val) :
    g (r (ix2 n j)) = ix3 n d j := by
  have hj : j.val < 8 := j.isLt
  have h1 : (r (ix2 n j) 1).val < 1 := (r (ix2 n j) 1).isLt
  refine idx3_ext (Fin.ext ?_) (Fin.ext ?_) (Fin.ext ?_)
  · rw [g0, r0]
    show (n.val * 8 + j.val) / 8 = n.val
    omega
  · rw [g1]
    show d.val + _ = d.val
    omega
  · rw [g2, r2]
    show (n.val * 8 + j.val) % 8 = j.val
    omega

/-- Row 0: the Legendre values of the first coordinate. -/
theorem v59_eq (x : XArr) (n : Fin 65536) (j : Fin 8) :
    val_main_v59 (F := Ideal) x (ix2 n j) = leg (x (ix2 n (0 : Fin 4))) j.val := by
  rw [val_main_v59_apply, val_main_v58_apply,
    row_idx n j 0 idx_main_v59 idx_main_v58 (fun _ => rfl) (fun _ => rfl) (fun _ => rfl)
      (fun _ => (Nat.zero_add _).symm) (fun _ => rfl), v57_eq]

/-- Row 1: the Legendre values of the second coordinate. -/
theorem v62_eq (x : XArr) (n : Fin 65536) (j : Fin 8) :
    val_main_v62 (F := Ideal) x (ix2 n j) = leg (x (ix2 n (1 : Fin 4))) j.val := by
  rw [val_main_v62_apply, val_main_v61_apply,
    row_idx n j 1 idx_main_v62 idx_main_v61 (fun _ => rfl) (fun _ => rfl) (fun _ => rfl) (fun _ => rfl)
      (fun _ => rfl), v57_eq]

/-- Row 2: the Legendre values of the third coordinate. -/
theorem v70_eq (x : XArr) (n : Fin 65536) (j : Fin 8) :
    val_main_v70 (F := Ideal) x (ix2 n j) = leg (x (ix2 n (2 : Fin 4))) j.val := by
  rw [val_main_v70_apply, val_main_v69_apply,
    row_idx n j 2 idx_main_v70 idx_main_v69 (fun _ => rfl) (fun _ => rfl) (fun _ => rfl) (fun _ => rfl)
      (fun _ => rfl), v57_eq]

/-- Row 3: the Legendre values of the fourth coordinate. -/
theorem v78_eq (x : XArr) (n : Fin 65536) (j : Fin 8) :
    val_main_v78 (F := Ideal) x (ix2 n j) = leg (x (ix2 n (3 : Fin 4))) j.val := by
  rw [val_main_v78_apply, val_main_v77_apply,
    row_idx n j 3 idx_main_v78 idx_main_v77 (fun _ => rfl) (fun _ => rfl) (fun _ => rfl) (fun _ => rfl)
      (fun _ => rfl), v57_eq]

end Cert.ReferenceIdeal.RefValue

end
-- ==== Proof.RefFeatures.lean ====
/-
  The 4096 features of a sample, built left to right from the four rows of Legendre values.

  The plain program forms the outer product of row 0 and row 1 (`[65536, 8, 8]`, entry `(n, a, c)` is
  `P_a(x₀)·P_c(x₁)`) and flattens it to 64 columns: column `r` is entry `(r / 8, r % 8)`, the two base-8 digits of
  `r`. It repeats this with row 2 (64 × 8 flattened to 512 columns) and with row 3 (512 × 8 flattened to 4096
  columns), always multiplying the accumulated product on the left by the new value on the right. Column `f` of the
  result is therefore the product over the four base-8 digits of `f`, most significant first, grouped from the
  left — the specification's `feat`. Each flattening is read through the division and remainder that recover
  `(column / 8, column % 8)` from the flat position `width·n + column`.
-/
import proofs.«158878_j79431125172612_2_alg».proof.Proof.RefTable

noncomputable section

namespace Cert.ReferenceIdeal.RefValue

open Cert.ReferenceIdeal Cert.ReferenceIdeal.Gen Cert.ReferenceIdeal.Read Cert.Legendre
open Idealize.ShloMosaic Idealize.ShloMosaic.ValueIdx

/-! ### Rows 0 and 1: the 64 products of two values -/

/-- Row 0 spread over the third axis: entry `(n, a, c)` is `P_a(x₀)`. -/
theorem v64_eq (x : XArr) (n : Fin 65536) (a c : Fin 8) :
    val_main_v64 (F := Ideal) x (ix3 n a c) = leg (x (ix2 n (0 : Fin 4))) a.val := by
  rw [val_main_v64_apply, val_main_v60_apply,
    show idx_main_v60 (idx_main_v64 (ix3 n a c)) = ix2 n a from idx2_ext rfl rfl, v59_eq]

/-- Row 1 spread over the second axis: entry `(n, a, c)` is `P_c(x₁)`. -/
theorem v65_eq (x : XArr) (n : Fin 65536) (a c : Fin 8) :
    val_main_v65 (F := Ideal) x (ix3 n a c) = leg (x (ix2 n (1 : Fin 4))) c.val := by
  rw [val_main_v65_apply, val_main_v63_apply,
    show idx_main_v63 (idx_main_v65 (ix3 n a c)) = ix2 n c from idx2_ext rfl rfl, v62_eq]

/-- The outer product of rows 0 and 1. -/
theorem v66_eq (x : XArr) (n : Fin 65536) (a c : Fin 8) :
    val_main_v66 (F := Ideal) x (ix3 n a c)
      = leg (x (ix2 n (0 : Fin 4))) a.val * leg (x (ix2 n (1 : Fin 4))) c.val := by
  rw [val_main_v66_apply, v64_eq, v65_eq]
  rfl

/-- Column `r` of the 64-column array sits at `(r / 8, r % 8)` of the outer product. -/
theorem flat64_idx (n : Fin 65536) (r : Fin 64) :
    idx_main_v67 (ix2 n r)
      = ix3 n (⟨r.val / 8, by have := r.isLt; omega⟩ : Fin 8) (⟨r.val % 8, by omega⟩ : Fin 8) := by
  have hr : r.val < 64 := r.isLt
  refine idx3_ext (Fin.ext ?_) (Fin.ext ?_) (Fin.ext ?_)
  · show (n.val * 64 + r.val) / 64 = n.val
    omega
  · show (n.val * 64 + r.val) / 8 % 8 = r.val / 8
    omega
  · show (n.val * 64 + r.val) % 8 = r.val % 8
    omega

/-- The 64 two-digit products. -/
theorem v67_eq (x : XArr) (n : Fin 65536) (r : Fin 64) :
    val_main_v67 (F := Ideal) x (ix2 n r) = pair (x (ix2 n (0 : Fin 4))) (x (ix2 n (1 : Fin 4))) r.val := by
  rw [val_main_v67_apply, flat64_idx, v66_eq]
  rfl

/-! ### Row 2: the 512 products of three values -/

/-- The two-digit products spread over the third axis. -/
theorem v72_eq (x : XArr) (n : Fin 65536) (s : Fin 64) (c : Fin 8) :
    val_main_v72 (F := Ideal) x (ix3 n s c) = pair (x (ix2 n (0 : Fin 4))) (x (ix2 n (1 : Fin 4))) s.val := by
  rw [val_main_v72_apply, val_main_v68_apply,
    show idx_main_v68 (idx_main_v72 (ix3 n s c)) = ix2 n s from idx2_ext rfl rfl, v67_eq]

/-- Row 2 spread over the second axis. -/
theorem v73_eq (x : XArr) (n : Fin 65536) (s : Fin 64) (c : Fin 8) :
    val_main_v73 (F := Ideal) x (ix3 n s c) = leg (x (ix2 n (2 : Fin 4))) c.val := by
  rw [val_main_v73_apply, val_main_v71_apply,
    show idx_main_v71 (idx_main_v73 (ix3 n s c)) = ix2 n c from idx2_ext rfl rfl, v70_eq]

/-- The outer product with row 2. -/
theorem v74_eq (x : XArr) (n : Fin 65536) (s : Fin 64) (c : Fin 8) :
    val_main_v74 (F := Ideal) x (ix3 n s c)
      = pair (x (ix2 n (0 : Fin 4))) (x (ix2 n (1 : Fin 4))) s.val * leg (x (ix2 n (2 : Fin 4))) c.val := by
  rw [val_main_v74_apply, v72_eq, v73_eq]
  rfl

/-- Column `s` of the 512-column array sits at `(s / 8, s % 8)`. -/
theorem flat512_idx (n : Fin 65536) (s : Fin 512) :
    idx_main_v75 (ix2 n s)
      = ix3 n (⟨s.val / 8, by have := s.isLt; omega⟩ : Fin 64) (⟨s.val % 8, by omega⟩ : Fin 8) := by
  have hs : s.val < 512 := s.isLt
  refine idx3_ext (Fin.ext ?_) (Fin.ext ?_) (Fin.ext ?_)
  · show (n.val * 512 + s.val) / 512 = n.val
    omega
  · show (n.val * 512 + s.val) / 8 % 64 = s.val / 8
    omega
  · show (n.val * 512 + s.val) % 8 = s.val % 8
    omega

/-- The 512 three-digit products. -/
theorem v75_eq (x : XArr) (n : Fin 65536) (s : Fin 512) :
    val_main_v75 (F := Ideal) x (ix2 n s)
      = pair (x (ix2 n (0 : Fin 4))) (x (ix2 n (1 : Fin 4))) (s.val / 8) * leg (x (ix2 n (2 : Fin 4))) (s.val % 8) := by
  rw [val_main_v75_apply, flat512_idx, v74_eq]

/-! ### Row 3: the 4096 features -/

/-- The three-digit products spread over the third axis. -/
theorem v80_eq (x : XArr) (n : Fin 65536) (s : Fin 512) (c : Fin 8) :
    val_main_v80 (F := Ideal) x (ix3 n s c)
      = pair (x (ix2 n (0 : Fin 4))) (x (ix2 n (1 : Fin 4))) (s.val / 8) * leg (x (ix2 n (2 : Fin 4))) (s.val % 8) := by
  rw [val_main_v80_apply, val_main_v76_apply,
    show idx_main_v76 (idx_main_v80 (ix3 n s c)) = ix2 n s from idx2_ext rfl rfl, v75_eq]

/-- Row 3 spread over the second axis. -/
theorem v81_eq (x : XArr) (n : Fin 65536) (s : Fin 512) (c : Fin 8) :
    val_main_v81 (F := Ideal) x (ix3 n s c) = leg (x (ix2 n (3 : Fin 4))) c.val := by
  rw [val_main_v81_apply, val_main_v79_apply,
    show idx_main_v79 (idx_main_v81 (ix3 n s c)) = ix2 n c from idx2_ext rfl rfl, v78_eq]

/-- The outer product with row 3. -/
theorem v82_eq (x : XArr) (n : Fin 65536) (s : Fin 512) (c : Fin 8) :
    val_main_v82 (F := Ideal) x (ix3 n s c)
      = (pair (x (ix2 n (0 : Fin 4))) (x (ix2 n (1 : Fin 4))) (s.val / 8) * leg (x (ix2 n (2 : Fin 4))) (s.val % 8))
        * leg (x (ix2 n (3 : Fin 4))) c.val := by
  rw [val_main_v82_apply, v80_eq, v81_eq]
  rfl

/-- Column `f` of the 4096-column array sits at `(f / 8, f % 8)`. -/
theorem flat4096_idx (n : Fin 65536) (f : Fin 4096) :
    idx_main_v83 (ix2 n f)
      = ix3 n (⟨f.val / 8, by have := f.isLt; omega⟩ : Fin 512) (⟨f.val % 8, by omega⟩ : Fin 8) := by
  have hf : f.val < 4096 := f.isLt
  refine idx3_ext (Fin.ext ?_) (Fin.ext ?_) (Fin.ext ?_)
  · show (n.val * 4096 + f.val) / 4096 = n.val
    omega
  · show (n.val * 4096 + f.val) / 8 % 512 = f.val / 8
    omega
  · show (n.val * 4096 + f.val) % 8 = f.val % 8
    omega

/-- The features: column `f` of the `[65536, 4096]` array is the product over the four base-8 digits of `f`. -/
theorem v83_eq (x : XArr) (n : Fin 65536) (f : Fin 4096) :
    val_main_v83 (F := Ideal) x (ix2 n f)
      = feat (x (ix2 n (0 : Fin 4))) (x (ix2 n (1 : Fin 4))) (x (ix2 n (2 : Fin 4))) (x (ix2 n (3 : Fin 4))) f.val := by
  rw [val_main_v83_apply, flat4096_idx, v82_eq]
  rfl

end Cert.ReferenceIdeal.RefValue

end
-- ==== Proof.RefResult.lean ====
/-
  The plain program's result is the specification's linear form.

  Its last five operations contract the `[65536, 4096]` feature array with the transposed weight row (entry
  `(n, 0)` of the product is `Σ_k feature(n, k) · W[0, k]`) and add the bias, broadcast from its single entry. With
  the features identified column by column, the sum is term by term the specification's sum over the 4096 digit
  strings, and the whole array is `G`.
-/
import proofs.«158878_j79431125172612_2_alg».proof.Proof.RefFeatures

noncomputable section

namespace Cert.ReferenceIdeal.RefValue

open Cert.ReferenceIdeal Cert.ReferenceIdeal.Gen Cert.ReferenceIdeal.Read Cert.Legendre
open Idealize.ShloMosaic Idealize.ShloMosaic.ValueIdx

/-- The weight row of the plain program. -/
abbrev WArr : Type := (⟨S1x4096, .f32⟩ : BufTy).Contents (Elt Ideal)
/-- The bias of the plain program. -/
abbrev BArr : Type := (⟨S1, .f32⟩ : BufTy).Contents (Elt Ideal)

/-- The transposed weights: entry `(k, 0)` of the column is `W[0, k]`, whatever the (single) column coordinate. -/
theorem v84_eq (W : WArr) (n : Fin 65536) (c : Fin 1) (k : Fin 4096) :
    val_main_v84 (F := Ideal) W (ridx_main_v85 (ix2 n c) k) = wAt W k.val := by
  have h1 : c.val < 1 := c.isLt
  rw [val_main_v84_apply,
    show idx_main_v84 (ridx_main_v85 (ix2 n c) k) = ix2 (0 : Fin 1) k from
      idx2_ext (Fin.ext (by show c.val = 0; omega)) rfl]
  unfold wAt
  rw [dif_pos k.isLt]

/-- The contraction at sample `n`: the sum over the 4096 features of feature times weight. -/
theorem v85_eq (x : XArr) (W : WArr) (n : Fin 65536) (c : Fin 1) :
    val_main_v85 (F := Ideal) x W (ix2 n c)
      = ∑ f : Fin 4096, feat (x (ix2 n (0 : Fin 4))) (x (ix2 n (1 : Fin 4))) (x (ix2 n (2 : Fin 4)))
          (x (ix2 n (3 : Fin 4))) f.val * wAt W f.val := by
  rw [val_main_v85_apply]
  refine Finset.sum_congr rfl fun k _ => ?_
  rw [show lidx_main_v85 (ix2 n c) k = ix2 n k from idx2_ext rfl rfl, v83_eq, v84_eq]

/-- The bias, broadcast to every sample. -/
theorem v87_eq (b : BArr) (i : S65536x1.Idx) : val_main_v87 (F := Ideal) b i = b (ix1 (0 : Fin 1)) := by
  rw [val_main_v87_apply, val_main_v86_apply,
    show idx_main_v86 (idx_main_v87 i) = ix1 (0 : Fin 1) from
      funext fun a => by match a with | ⟨0, _⟩ => rfl]

/-- **The plain program computes the specification.** -/
theorem ref_eq_G (x : (⟨S65536x4, .f32⟩ : BufTy).Contents (Elt Ideal)) (W : (⟨S1x4096, .f32⟩ : BufTy).Contents (Elt Ideal))
    (b : (⟨S1, .f32⟩ : BufTy).Contents (Elt Ideal)) :
    Cert.ReferenceIdeal.Read.val_main_v88 (F := Ideal) x W b = Cert.Legendre.G x W b := by
  funext i
  obtain ⟨n, c, rfl⟩ : ∃ (n : Fin 65536) (c : Fin 1), i = ix2 n c := ⟨i 0, i 1, eq_ix2 i⟩
  rw [val_main_v88_apply, v85_eq, v87_eq]
  rfl

end Cert.ReferenceIdeal.RefValue

end
-- ==== Proof.KerHost.lean ====
/-
  What the blocked program's region finds in its three operand arrays, index by index.

  Before the region the program transposes the sample array, so that a sample's four coordinates sit in one
  column: entry (d, n) of the transposed array is coordinate d of sample n. It reads the row of 4096 weights as a
  64 × 64 matrix in row-major order: entry (r, k) of the matrix is weight 64·r + k. And it reads the one bias as a
  1 × 1 matrix. Nothing else happens before the region, so each operand array is one of these three readings of an
  argument array as launched. The last definition names the array the region is to produce from them.
-/
import proofs.«158878_j79431125172612_2_alg».proof.Proof.Gen.KernelIdeal.Frame
import proofs.«158878_j79431125172612_2_alg».proof.Proof.Spec
import Idealize.ShloMosaic.Lib.Pipeline.Value
import Idealize.ShloMosaic.Lib.ValueLayout
import Idealize.ShloMosaic.Lib.ValueIdx

noncomputable section

namespace Cert.KernelIdeal.KerValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The transposed sample array: entry `(d, n)` is coordinate `d` of sample `n`. -/
theorem host_samples (c : Dev nD) (d : Fin 4) (n : Fin 65536) :
    (V m c main_call0_v0 : S4x65536.Idx → EReal) (ix2 d n)
      = (m ((c : Thread nD τ).loc main_arg0) : S65536x4.Idx → EReal) (ix2 n d) := by
  have e : (V m c main_call0_v0 : S4x65536.Idx → EReal)
      = transpose S4x65536 [1, 0] (m ((c : Thread nD τ).loc main_arg0) : S65536x4.Idx → EReal)
          Gen.transposes_S65536x4_S4x65536_1_0 := by
    show StableHlo.after hostOps0 (fun b => m (c, b)) (Proc.devRef .tc main_call0_v0) = _
    after_results
    rfl
  rw [e]
  exact transpose_ix2_apply _ _ d n

/-- The weight matrix: entry `(r, k)` is weight `64·r + k` of the row of 4096. -/
theorem host_weights (c : Dev nD) (r k : Fin 64) :
    (V m c main_call0_v1 : S64x64.Idx → EReal) (ix2 r k)
      = (m ((c : Thread nD τ).loc main_arg1) : S1x4096.Idx → EReal)
          (ix2 (0 : Fin 1) (⟨64 * r.val + k.val, by have := r.isLt; have := k.isLt; omega⟩ : Fin 4096)) := by
  have e : (V m c main_call0_v1 : S64x64.Idx → EReal)
      = shapeCast S64x64 (m ((c : Thread nD τ).loc main_arg1) : S1x4096.Idx → EReal) Gen.shapeCasts_S1x4096_S64x64 := by
    show StableHlo.after hostOps0 (fun b => m (c, b)) (Proc.devRef .tc main_call0_v1) = _
    after_results
    rfl
  rw [e]
  refine shapeCast_apply _ _ _ _ ?_
  show ((⟨2, ![1, 4096]⟩ : Shape).rowMajor (ix2 (0 : Fin 1) (⟨64 * r.val + k.val, _⟩ : Fin 4096))).val
    = ((⟨2, ![64, 64]⟩ : Shape).rowMajor (ix2 r k)).val
  rw [Shape.rowMajor_val_two, Shape.rowMajor_val_two]
  show (0 : ℕ) * 4096 + (64 * r.val + k.val) = r.val * 64 + k.val
  omega

/-- The bias as a 1 × 1 matrix: its one entry is the bias. -/
theorem host_bias (c : Dev nD) :
    (V m c main_call0_v2 : S1x1.Idx → EReal) (ix2 (0 : Fin 1) (0 : Fin 1))
      = (m ((c : Thread nD τ).loc main_arg2) : S1.Idx → EReal) (ix1 (0 : Fin 1)) := by
  have e : (V m c main_call0_v2 : S1x1.Idx → EReal)
      = shapeCast S1x1 (m ((c : Thread nD τ).loc main_arg2) : S1.Idx → EReal) Gen.shapeCasts_S1_S1x1 := by
    show StableHlo.after hostOps0 (fun b => m (c, b)) (Proc.devRef .tc main_call0_v2) = _
    after_results
    rfl
  rw [e]
  refine shapeCast_apply _ _ _ _ ?_
  show ((⟨1, ![1]⟩ : Shape).rowMajor (ix1 (0 : Fin 1))).val
    = ((⟨2, ![1, 1]⟩ : Shape).rowMajor (ix2 (0 : Fin 1) (0 : Fin 1))).val
  rw [Shape.rowMajor_val_two, Shape.rowMajor_val_one]
  rfl

/-- The array the region is to leave in its result: column `n` of the one row holds the blocked arrangement of the
    Legendre feature sum at sample `n`, over the three argument arrays as launched. -/
def result (c : Dev nD) : S1x65536.Idx → EReal := fun i =>
  Cert.Legendre.kerAt (m ((c : Thread nD τ).loc main_arg0) : S65536x4.Idx → EReal)
    (m ((c : Thread nD τ).loc main_arg1) : S1x4096.Idx → EReal)
    (m ((c : Thread nD τ).loc main_arg2) : S1.Idx → EReal) (⟨(i 1).val, idx2_lt1 i⟩ : Fin 65536)

end Cert.KernelIdeal.KerValue

end
-- ==== Proof.KerLegs.lean ====
/-
  The body's Legendre recurrences, read at an index.

  The body splits its block `[4, 8192]` (one column per sample, one row per coordinate) into rows 2, 3 and rows 0, 1 and
  runs Bonnet's recurrence on each half, every step a pointwise expression of the half and of the two previous
  steps. At the extended reals each step is, entry by entry, the step `Cert.Legendre.step` of the specification with
  the same float literals: the degree-`k` array at an entry is `P_k` of the half at that entry.
-/
import proofs.«158878_j79431125172612_2_alg».proof.Proof.Gen.KernelIdeal.Skeleton
import proofs.«158878_j79431125172612_2_alg».proof.Proof.Spec
import Idealize.ShloMosaic.Lib.ValueLayout

noncomputable section

namespace Cert.KernelIdeal.KerValue

open Cert.KernelIdeal Cert.KernelIdeal.Gen Cert.Legendre Idealize.ShloMosaic Idealize.ShloMosaic.ValueIdx

variable [Facts]

/-- The half of the block the first recurrence runs on is rows 2 and 3. -/
theorem lastRows_apply (v0 : Vec Ideal S4x8192 .f32) (d : Fin 2) (q : Fin 8192) :
    k0_pay3 (F := Ideal) v0 (ix2 d q) = v0 (ix2 (⟨2 + d.val, by omega⟩ : Fin 4) q) := by
  unfold k0_pay3 k0_pay2
  dsimp only
  refine (slice2_axis0_apply 2 _ _ d q ⟨2 + d.val, by omega⟩ rfl).trans ?_
  exact congrFun (shapeCast_self _ _) _

/-- The half the second recurrence runs on is rows 0 and 1. -/
theorem firstRows_apply (v1 : FVec Ideal S4x8192 .f32) (d : Fin 2) (q : Fin 8192) :
    k0_pay12 (F := Ideal) v1 (ix2 d q) = v1 (ix2 (⟨d.val, by omega⟩ : Fin 4) q) := by
  unfold k0_pay12
  exact slice2_axis0_apply 0 _ _ d q ⟨d.val, by omega⟩ (Nat.zero_add _).symm

/-- The block as loaded is the block (the cast to its own shape is the identity). -/
theorem loaded_eq (v0 : Vec Ideal S4x8192 .f32) : k0_pay2 (F := Ideal) v0 = v0 := by
  unfold k0_pay2
  exact shapeCast_self _ _

/-! ### The first recurrence (rows 2, 3) -/

theorem lastP0 (j : S2x8192.Idx) : k0_pay4 (F := Ideal) j = P0 := rfl
theorem lastP2 (v0 : Vec Ideal S4x8192 .f32) (j : S2x8192.Idx) : k0_pay5 (F := Ideal) v0 j = P2 (k0_pay3 v0 j) := rfl
theorem lastP3 (v0 : Vec Ideal S4x8192 .f32) (j : S2x8192.Idx) : k0_pay6 (F := Ideal) v0 j = P3 (k0_pay3 v0 j) := rfl
theorem lastP4 (v0 : Vec Ideal S4x8192 .f32) (j : S2x8192.Idx) : k0_pay7 (F := Ideal) v0 j = P4 (k0_pay3 v0 j) := rfl
theorem lastP5 (v0 : Vec Ideal S4x8192 .f32) (j : S2x8192.Idx) : k0_pay8 (F := Ideal) v0 j = P5 (k0_pay3 v0 j) := rfl
/-- The last array the first part hands on is `P₆`'s numerator, `(11x)P₅ − 5P₄`. -/
theorem lastN6 (v0 : Vec Ideal S4x8192 .f32) (j : S2x8192.Idx) :
    k0_pay9 (F := Ideal) v0 j
      = (lit 0x41300000#32 * k0_pay3 v0 j) * P5 (k0_pay3 v0 j) - lit 0x40A00000#32 * P4 (k0_pay3 v0 j) := rfl

/-! ### The second recurrence (rows 0, 1) -/

theorem firstP0 (j : S2x8192.Idx) : k0_pay13 (F := Ideal) j = P0 := rfl
theorem firstP2 (v1 : FVec Ideal S4x8192 .f32) (j : S2x8192.Idx) : k0_pay14 (F := Ideal) v1 j = P2 (k0_pay12 v1 j) := rfl
theorem firstP3 (v1 : FVec Ideal S4x8192 .f32) (j : S2x8192.Idx) : k0_pay15 (F := Ideal) v1 j = P3 (k0_pay12 v1 j) := rfl
theorem firstP4 (v1 : FVec Ideal S4x8192 .f32) (j : S2x8192.Idx) : k0_pay16 (F := Ideal) v1 j = P4 (k0_pay12 v1 j) := rfl
theorem firstP5 (v1 : FVec Ideal S4x8192 .f32) (j : S2x8192.Idx) : k0_pay17 (F := Ideal) v1 j = P5 (k0_pay12 v1 j) := rfl
theorem firstN6 (v1 : FVec Ideal S4x8192 .f32) (j : S2x8192.Idx) :
    k0_pay18 (F := Ideal) v1 j
      = (lit 0x41300000#32 * k0_pay12 v1 j) * P5 (k0_pay12 v1 j) - lit 0x40A00000#32 * P4 (k0_pay12 v1 j) := rfl

end Cert.KernelIdeal.KerValue

end
-- ==== Proof.KerConcat.lean ====
/-
  A concatenation of eight pieces along the leading axis, read at an index.

  The body assembles each table of Legendre values from eight rows `[1, 8192]` (one degree each) and each table of
  pairwise products from eight blocks `[8, 8192]` (one leading digit each). Row `j` of the first kind is piece `j`;
  row `r` of the second kind is row `r % 8` of piece `r / 8`. `sel8` names "the `j`-th of eight things".
-/
import Idealize.ShloMosaic.Lib.Pipeline.Value
import Idealize.ShloMosaic.Lib.ValueIdx

namespace Cert.Legendre

open Idealize.ShloMosaic Idealize.ShloMosaic.ValueIdx

/-- The `j`-th of eight things (the last one past the end, where nothing reads it). -/
def sel8 {β : Type} (a0 a1 a2 a3 a4 a5 a6 a7 : β) : ℕ → β
  | 0 => a0
  | 1 => a1
  | 2 => a2
  | 3 => a3
  | 4 => a4
  | 5 => a5
  | 6 => a6
  | _ => a7

/-- Selecting among functions and then applying is selecting among the values. -/
theorem sel8_apply {ι β : Type} (a0 a1 a2 a3 a4 a5 a6 a7 : ι → β) (j : ℕ) (i : ι) :
    sel8 a0 a1 a2 a3 a4 a5 a6 a7 j i = sel8 (a0 i) (a1 i) (a2 i) (a3 i) (a4 i) (a5 i) (a6 i) (a7 i) j := by
  unfold sel8; split <;> rfl

/-- One row, eight rows, eight blocks of eight rows, sixty-four rows: the shapes of the pieces and of the tables. -/
abbrev R1 : Shape := ⟨2, ![1, 8192]⟩
abbrev R8 : Shape := ⟨2, ![8, 8192]⟩
abbrev R64 : Shape := ⟨2, ![64, 8192]⟩

variable {α : Type}

/-- Eight rows stacked: row `j` of the stack is the one row of piece `j`. -/
theorem concat_rows8_apply (p0 p1 p2 p3 p4 p5 p6 p7 : R1.Idx → α)
    (h : Shape.Concatenates (([⟨R1, p0⟩, ⟨R1, p1⟩, ⟨R1, p2⟩, ⟨R1, p3⟩, ⟨R1, p4⟩, ⟨R1, p5⟩, ⟨R1, p6⟩, ⟨R1, p7⟩] : List ((s : Shape) × (s.Idx → α))).map (·.1)) R8 0)
    (j : Fin 8) (q : Fin 8192) :
    concatenate R8 0 [⟨R1, p0⟩, ⟨R1, p1⟩, ⟨R1, p2⟩, ⟨R1, p3⟩, ⟨R1, p4⟩, ⟨R1, p5⟩, ⟨R1, p6⟩, ⟨R1, p7⟩] h (ix2 j q)
      = sel8 p0 p1 p2 p3 p4 p5 p6 p7 j.val (ix2 (0 : Fin 1) q) :=
  match j with
  | ⟨0, _⟩ =>
    concatenate_apply_piece (0 : Fin R8.rank) _ h (ix2 (⟨0, by omega⟩ : Fin 8) q) 0 (by simp) R1 p0 rfl rfl 0 rfl (ix2 (0 : Fin 1) q)
      (fun b hb => by
        match b with
        | ⟨0, _⟩ => exact absurd rfl hb
        | ⟨1, _⟩ => rfl)
      rfl
  | ⟨1, _⟩ =>
    concatenate_apply_piece (0 : Fin R8.rank) _ h (ix2 (⟨1, by omega⟩ : Fin 8) q) 1 (by simp) R1 p1 rfl rfl 1 rfl (ix2 (0 : Fin 1) q)
      (fun b hb => by
        match b with
        | ⟨0, _⟩ => exact absurd rfl hb
        | ⟨1, _⟩ => rfl)
      rfl
  | ⟨2, _⟩ =>
    concatenate_apply_piece (0 : Fin R8.rank) _ h (ix2 (⟨2, by omega⟩ : Fin 8) q) 2 (by simp) R1 p2 rfl rfl 2 rfl (ix2 (0 : Fin 1) q)
      (fun b hb => by
        match b with
        | ⟨0, _⟩ => exact absurd rfl hb
        | ⟨1, _⟩ => rfl)
      rfl
  | ⟨3, _⟩ =>
    concatenate_apply_piece (0 : Fin R8.rank) _ h (ix2 (⟨3, by omega⟩ : Fin 8) q) 3 (by simp) R1 p3 rfl rfl 3 rfl (ix2 (0 : Fin 1) q)
      (fun b hb => by
        match b with
        | ⟨0, _⟩ => exact absurd rfl hb
        | ⟨1, _⟩ => rfl)
      rfl
  | ⟨4, _⟩ =>
    concatenate_apply_piece (0 : Fin R8.rank) _ h (ix2 (⟨4, by omega⟩ : Fin 8) q) 4 (by simp) R1 p4 rfl rfl 4 rfl (ix2 (0 : Fin 1) q)
      (fun b hb => by
        match b with
        | ⟨0, _⟩ => exact absurd rfl hb
        | ⟨1, _⟩ => rfl)
      rfl
  | ⟨5, _⟩ =>
    concatenate_apply_piece (0 : Fin R8.rank) _ h (ix2 (⟨5, by omega⟩ : Fin 8) q) 5 (by simp) R1 p5 rfl rfl 5 rfl (ix2 (0 : Fin 1) q)
      (fun b hb => by
        match b with
        | ⟨0, _⟩ => exact absurd rfl hb
        | ⟨1, _⟩ => rfl)
      rfl
  | ⟨6, _⟩ =>
    concatenate_apply_piece (0 : Fin R8.rank) _ h (ix2 (⟨6, by omega⟩ : Fin 8) q) 6 (by simp) R1 p6 rfl rfl 6 rfl (ix2 (0 : Fin 1) q)
      (fun b hb => by
        match b with
        | ⟨0, _⟩ => exact absurd rfl hb
        | ⟨1, _⟩ => rfl)
      rfl
  | ⟨7, _⟩ =>
    concatenate_apply_piece (0 : Fin R8.rank) _ h (ix2 (⟨7, by omega⟩ : Fin 8) q) 7 (by simp) R1 p7 rfl rfl 7 rfl (ix2 (0 : Fin 1) q)
      (fun b hb => by
        match b with
        | ⟨0, _⟩ => exact absurd rfl hb
        | ⟨1, _⟩ => rfl)
      rfl
  | ⟨n + 8, hn⟩ => absurd hn (by omega)

/-- Eight blocks of eight rows stacked: row `8 i + j` of the stack is row `j` of piece `i`. -/
theorem concat_blocks8_apply (p0 p1 p2 p3 p4 p5 p6 p7 : R8.Idx → α)
    (h : Shape.Concatenates (([⟨R8, p0⟩, ⟨R8, p1⟩, ⟨R8, p2⟩, ⟨R8, p3⟩, ⟨R8, p4⟩, ⟨R8, p5⟩, ⟨R8, p6⟩, ⟨R8, p7⟩] : List ((s : Shape) × (s.Idx → α))).map (·.1)) R64 0)
    (i j : Fin 8) (q : Fin 8192) :
    concatenate R64 0 [⟨R8, p0⟩, ⟨R8, p1⟩, ⟨R8, p2⟩, ⟨R8, p3⟩, ⟨R8, p4⟩, ⟨R8, p5⟩, ⟨R8, p6⟩, ⟨R8, p7⟩] h (ix2 (⟨8 * i.val + j.val, by omega⟩ : Fin 64) q)
      = sel8 p0 p1 p2 p3 p4 p5 p6 p7 i.val (ix2 j q) :=
  match i with
  | ⟨0, _⟩ =>
    concatenate_apply_piece (0 : Fin R64.rank) _ h (ix2 (⟨8 * 0 + j.val, by omega⟩ : Fin 64) q) 0 (by simp) R8 p0 rfl rfl (8 * 0) rfl (ix2 j q)
      (fun b hb => by
        match b with
        | ⟨0, _⟩ => exact absurd rfl hb
        | ⟨1, _⟩ => rfl)
      rfl
  | ⟨1, _⟩ =>
    concatenate_apply_piece (0 : Fin R64.rank) _ h (ix2 (⟨8 * 1 + j.val, by omega⟩ : Fin 64) q) 1 (by simp) R8 p1 rfl rfl (8 * 1) rfl (ix2 j q)
      (fun b hb => by
        match b with
        | ⟨0, _⟩ => exact absurd rfl hb
        | ⟨1, _⟩ => rfl)
      rfl
  | ⟨2, _⟩ =>
    concatenate_apply_piece (0 : Fin R64.rank) _ h (ix2 (⟨8 * 2 + j.val, by omega⟩ : Fin 64) q) 2 (by simp) R8 p2 rfl rfl (8 * 2) rfl (ix2 j q)
      (fun b hb => by
        match b with
        | ⟨0, _⟩ => exact absurd rfl hb
        | ⟨1, _⟩ => rfl)
      rfl
  | ⟨3, _⟩ =>
    concatenate_apply_piece (0 : Fin R64.rank) _ h (ix2 (⟨8 * 3 + j.val, by omega⟩ : Fin 64) q) 3 (by simp) R8 p3 rfl rfl (8 * 3) rfl (ix2 j q)
      (fun b hb => by
        match b with
        | ⟨0, _⟩ => exact absurd rfl hb
        | ⟨1, _⟩ => rfl)
      rfl
  | ⟨4, _⟩ =>
    concatenate_apply_piece (0 : Fin R64.rank) _ h (ix2 (⟨8 * 4 + j.val, by omega⟩ : Fin 64) q) 4 (by simp) R8 p4 rfl rfl (8 * 4) rfl (ix2 j q)
      (fun b hb => by
        match b with
        | ⟨0, _⟩ => exact absurd rfl hb
        | ⟨1, _⟩ => rfl)
      rfl
  | ⟨5, _⟩ =>
    concatenate_apply_piece (0 : Fin R64.rank) _ h (ix2 (⟨8 * 5 + j.val, by omega⟩ : Fin 64) q) 5 (by simp) R8 p5 rfl rfl (8 * 5) rfl (ix2 j q)
      (fun b hb => by
        match b with
        | ⟨0, _⟩ => exact absurd rfl hb
        | ⟨1, _⟩ => rfl)
      rfl
  | ⟨6, _⟩ =>
    concatenate_apply_piece (0 : Fin R64.rank) _ h (ix2 (⟨8 * 6 + j.val, by omega⟩ : Fin 64) q) 6 (by simp) R8 p6 rfl rfl (8 * 6) rfl (ix2 j q)
      (fun b hb => by
        match b with
        | ⟨0, _⟩ => exact absurd rfl hb
        | ⟨1, _⟩ => rfl)
      rfl
  | ⟨7, _⟩ =>
    concatenate_apply_piece (0 : Fin R64.rank) _ h (ix2 (⟨8 * 7 + j.val, by omega⟩ : Fin 64) q) 7 (by simp) R8 p7 rfl rfl (8 * 7) rfl (ix2 j q)
      (fun b hb => by
        match b with
        | ⟨0, _⟩ => exact absurd rfl hb
        | ⟨1, _⟩ => rfl)
      rfl
  | ⟨n + 8, hn⟩ => absurd hn (by omega)

end Cert.Legendre
-- ==== Proof.KerTables.lean ====
/-
  The two tables the body builds, read at an index.

  From the eight degree arrays `[2, 8192]` of a recurrence (one row per coordinate of the half) the body picks row
  `d` of each and stacks the eight rows: a table `[8, 8192]` whose row `k` is degree `k` of coordinate `d`
  (`degreeTable_apply`). From two such tables `A, B` it forms, for each `i`, row `i` of `A` repeated over eight rows
  times `B`, and stacks the eight products: a table `[64, 8192]` whose row `8 i + j` is `A_i · B_j`
  (`productTable_apply`).
-/
import proofs.«158878_j79431125172612_2_alg».proof.Proof.KerConcat
import Idealize.ShloMosaic.Lib.ValueLayout

namespace Cert.Legendre

open Idealize.ShloMosaic Idealize.ShloMosaic.ValueIdx

/-- Two rows: the shape of a half of the block. -/
abbrev R2 : Shape := ⟨2, ![2, 8192]⟩

/-- Selecting among the eight values of one function is the function. -/
theorem sel8_fin {β : Type} (f : Fin 8 → β) (i : Fin 8) :
    sel8 (f 0) (f 1) (f 2) (f 3) (f 4) (f 5) (f 6) (f 7) i.val = f i :=
  match i with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl
  | ⟨n + 8, hn⟩ => absurd hn (by omega)

/-- A common right factor comes out of a selection. -/
theorem sel8_mul_right (a0 a1 a2 a3 a4 a5 a6 a7 c : EReal) (k : ℕ) :
    sel8 (a0 * c) (a1 * c) (a2 * c) (a3 * c) (a4 * c) (a5 * c) (a6 * c) (a7 * c) k
      = sel8 a0 a1 a2 a3 a4 a5 a6 a7 k * c := by
  unfold sel8; split <;> rfl

variable {α : Type}

/-- Row `o` of a two-row array, as a one-row array, read at a column. -/
theorem rowOfPair_apply (v : R2.Idx → α) (o : ℕ) (hs : R2.Slices ![o, 0] R1) (d : Fin 2) (hd : d.val = o) (q : Fin 8192) :
    extractStridedSlice R1 ![o, 0] v hs (ix2 (0 : Fin 1) q) = v (ix2 d q) :=
  slice2_axis0_apply o v hs (0 : Fin 1) q d (by rw [hd]; rfl)

/-- Row `o` of a table repeated over eight rows, read at any row: the table's row `o`. -/
theorem rowRepeated_apply (T : R8.Idx → α) (o : ℕ) (hs : R8.Slices ![o, 0] R1) (hb : R1.Broadcasts R8)
    (k : Fin 8) (hk : k.val = o) (j : Fin 8) (q : Fin 8192) :
    broadcastTo R8 (extractStridedSlice R1 ![o, 0] T hs) hb (ix2 j q) = T (ix2 k q) :=
  (broadcastTo_1b_ab_apply _ hb j q).trans (slice2_axis0_apply o T hs (0 : Fin 1) q k (by rw [hk]; rfl))

/-- The table of degrees of coordinate `d`: row `k` is the `k`-th array at `(d, ·)`. -/
theorem degreeTable_apply (w0 w1 w2 w3 w4 w5 w6 w7 : R2.Idx → α) (o : ℕ) (hs : R2.Slices ![o, 0] R1)
    (hc : Shape.Concatenates (([⟨R1, extractStridedSlice R1 ![o, 0] w0 hs⟩, ⟨R1, extractStridedSlice R1 ![o, 0] w1 hs⟩, ⟨R1, extractStridedSlice R1 ![o, 0] w2 hs⟩, ⟨R1, extractStridedSlice R1 ![o, 0] w3 hs⟩, ⟨R1, extractStridedSlice R1 ![o, 0] w4 hs⟩, ⟨R1, extractStridedSlice R1 ![o, 0] w5 hs⟩, ⟨R1, extractStridedSlice R1 ![o, 0] w6 hs⟩, ⟨R1, extractStridedSlice R1 ![o, 0] w7 hs⟩] : List ((s : Shape) × (s.Idx → α))).map (·.1)) R8 0)
    (d : Fin 2) (hd : d.val = o) (k : Fin 8) (q : Fin 8192) :
    concatenate R8 0 [⟨R1, extractStridedSlice R1 ![o, 0] w0 hs⟩, ⟨R1, extractStridedSlice R1 ![o, 0] w1 hs⟩, ⟨R1, extractStridedSlice R1 ![o, 0] w2 hs⟩, ⟨R1, extractStridedSlice R1 ![o, 0] w3 hs⟩, ⟨R1, extractStridedSlice R1 ![o, 0] w4 hs⟩, ⟨R1, extractStridedSlice R1 ![o, 0] w5 hs⟩, ⟨R1, extractStridedSlice R1 ![o, 0] w6 hs⟩, ⟨R1, extractStridedSlice R1 ![o, 0] w7 hs⟩] hc (ix2 k q)
      = sel8 (w0 (ix2 d q)) (w1 (ix2 d q)) (w2 (ix2 d q)) (w3 (ix2 d q)) (w4 (ix2 d q)) (w5 (ix2 d q)) (w6 (ix2 d q)) (w7 (ix2 d q)) k.val := by
  refine (concat_rows8_apply _ _ _ _ _ _ _ _ hc k q).trans ?_
  rw [sel8_apply, rowOfPair_apply w0 o hs d hd q, rowOfPair_apply w1 o hs d hd q, rowOfPair_apply w2 o hs d hd q, rowOfPair_apply w3 o hs d hd q, rowOfPair_apply w4 o hs d hd q, rowOfPair_apply w5 o hs d hd q, rowOfPair_apply w6 o hs d hd q, rowOfPair_apply w7 o hs d hd q]

/-- The table of pairwise products: row `8 i + j` is row `i` of `A` times row `j` of `B`. -/
theorem productTable_apply (A B : FVec Ideal R8 .f32)
    (hs0 : R8.Slices ![0, 0] R1) (hs1 : R8.Slices ![1, 0] R1) (hs2 : R8.Slices ![2, 0] R1) (hs3 : R8.Slices ![3, 0] R1) (hs4 : R8.Slices ![4, 0] R1) (hs5 : R8.Slices ![5, 0] R1) (hs6 : R8.Slices ![6, 0] R1) (hs7 : R8.Slices ![7, 0] R1) (hb : R1.Broadcasts R8)
    (hc : Shape.Concatenates (([⟨R8, mulf (broadcastTo R8 (extractStridedSlice R1 ![0, 0] A hs0) hb) B⟩, ⟨R8, mulf (broadcastTo R8 (extractStridedSlice R1 ![1, 0] A hs1) hb) B⟩, ⟨R8, mulf (broadcastTo R8 (extractStridedSlice R1 ![2, 0] A hs2) hb) B⟩, ⟨R8, mulf (broadcastTo R8 (extractStridedSlice R1 ![3, 0] A hs3) hb) B⟩, ⟨R8, mulf (broadcastTo R8 (extractStridedSlice R1 ![4, 0] A hs4) hb) B⟩, ⟨R8, mulf (broadcastTo R8 (extractStridedSlice R1 ![5, 0] A hs5) hb) B⟩, ⟨R8, mulf (broadcastTo R8 (extractStridedSlice R1 ![6, 0] A hs6) hb) B⟩, ⟨R8, mulf (broadcastTo R8 (extractStridedSlice R1 ![7, 0] A hs7) hb) B⟩] : List ((s : Shape) × (s.Idx → Ideal .f32))).map (·.1)) R64 0)
    (i j : Fin 8) (q : Fin 8192) :
    concatenate R64 0 [⟨R8, mulf (broadcastTo R8 (extractStridedSlice R1 ![0, 0] A hs0) hb) B⟩, ⟨R8, mulf (broadcastTo R8 (extractStridedSlice R1 ![1, 0] A hs1) hb) B⟩, ⟨R8, mulf (broadcastTo R8 (extractStridedSlice R1 ![2, 0] A hs2) hb) B⟩, ⟨R8, mulf (broadcastTo R8 (extractStridedSlice R1 ![3, 0] A hs3) hb) B⟩, ⟨R8, mulf (broadcastTo R8 (extractStridedSlice R1 ![4, 0] A hs4) hb) B⟩, ⟨R8, mulf (broadcastTo R8 (extractStridedSlice R1 ![5, 0] A hs5) hb) B⟩, ⟨R8, mulf (broadcastTo R8 (extractStridedSlice R1 ![6, 0] A hs6) hb) B⟩, ⟨R8, mulf (broadcastTo R8 (extractStridedSlice R1 ![7, 0] A hs7) hb) B⟩] hc
        (ix2 (⟨8 * i.val + j.val, by omega⟩ : Fin 64) q)
      = A (ix2 i q) * B (ix2 j q) := by
  refine (concat_blocks8_apply _ _ _ _ _ _ _ _ hc i j q).trans ?_
  rw [sel8_apply]
  simp only [mulf_apply]
  rw [rowRepeated_apply A 0 hs0 hb (⟨0, by omega⟩ : Fin 8) rfl j q, rowRepeated_apply A 1 hs1 hb (⟨1, by omega⟩ : Fin 8) rfl j q, rowRepeated_apply A 2 hs2 hb (⟨2, by omega⟩ : Fin 8) rfl j q, rowRepeated_apply A 3 hs3 hb (⟨3, by omega⟩ : Fin 8) rfl j q, rowRepeated_apply A 4 hs4 hb (⟨4, by omega⟩ : Fin 8) rfl j q, rowRepeated_apply A 5 hs5 hb (⟨5, by omega⟩ : Fin 8) rfl j q, rowRepeated_apply A 6 hs6 hb (⟨6, by omega⟩ : Fin 8) rfl j q, rowRepeated_apply A 7 hs7 hb (⟨7, by omega⟩ : Fin 8) rfl j q]
  rw [sel8_mul_right]
  exact congrArg (· * B (ix2 j q)) (sel8_fin (fun k => A (ix2 k q)) i)

end Cert.Legendre
-- ==== Proof.KerPayload.lean ====
/-
  The body's arithmetic after the recurrences, read at an index.

  With `A` and `B` the two tables of pairwise products of Legendre values (row `8 i + j` is degree `i` of one
  coordinate times degree `j` of the next), the body computes `C = W · B` (one 64 × 64 by 64 × 8192 matrix product; the
  narrowing of both operands to a shorter float format is the identity at the extended reals), then the column sums of
  `A ∘ C`, and adds the bias: at column `q`,  `Σ_r A[r, q] · (Σ_k W[r, k] · B[k, q]) + b`.
-/
import proofs.«158878_j79431125172612_2_alg».proof.Proof.Gen.KernelIdeal.Skeleton
import proofs.«158878_j79431125172612_2_alg».proof.Proof.Spec
import proofs.«158878_j79431125172612_2_alg».proof.Proof.KerTables
import Idealize.ShloMosaic.Lib.ValueLayout
import Idealize.ShloMosaic.PureOps.Ideal.Laws

noncomputable section

namespace Cert.KernelIdeal.KerValue

open Cert.KernelIdeal Cert.KernelIdeal.Gen Cert.Legendre Idealize.ShloMosaic Idealize.ShloMosaic.ValueIdx

variable [Facts]

/-- The eight degrees of coordinate `d` at column `q`, from the arrays a recurrence hands on: degrees 0 to 5 as they
    are, degree 6 from its numerator `n6`, degree 7 by one more step. -/
def degrees (x p0 p2 p3 p4 p5 n6 : S2x8192.Idx → EReal) (d : Fin 2) (q : Fin 8192) (k : ℕ) : EReal :=
  sel8 (p0 (ix2 d q)) (x (ix2 d q)) (p2 (ix2 d q)) (p3 (ix2 d q)) (p4 (ix2 d q)) (p5 (ix2 d q))
    (Ideal.div (n6 (ix2 d q)) (lit 0x40C00000#32))
    (step 0x41500000#32 0x40C00000#32 0x40E00000#32 (x (ix2 d q)) (Ideal.div (n6 (ix2 d q)) (lit 0x40C00000#32)) (p5 (ix2 d q))) k

/-- When the arrays are the recurrence's, the eight degrees are the Legendre values of the coordinate. -/
theorem degrees_eq_leg (x p0 p2 p3 p4 p5 n6 : S2x8192.Idx → EReal) (d : Fin 2) (q : Fin 8192) (k : Fin 8)
    (h0 : p0 (ix2 d q) = P0) (h2 : p2 (ix2 d q) = P2 (x (ix2 d q))) (h3 : p3 (ix2 d q) = P3 (x (ix2 d q)))
    (h4 : p4 (ix2 d q) = P4 (x (ix2 d q))) (h5 : p5 (ix2 d q) = P5 (x (ix2 d q)))
    (h6 : n6 (ix2 d q) = (lit 0x41300000#32 * x (ix2 d q)) * P5 (x (ix2 d q)) - lit 0x40A00000#32 * P4 (x (ix2 d q))) :
    degrees x p0 p2 p3 p4 p5 n6 d q k.val = leg (x (ix2 d q)) k.val := by
  unfold degrees
  rw [h0, h2, h3, h4, h5, h6]
  match k with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl
  | ⟨n + 8, hn⟩ => exact absurd hn (by omega)

/-- The first table of products: row `8 i + j` is degree `i` of row 0 times degree `j` of row 1 of the half. -/
theorem lastPairs_apply (v2 v3 v11 v19 v27 v35 v41 : FVec Ideal S2x8192 .f32) (i j : Fin 8) (q : Fin 8192) :
    k0_pay10 (F := Ideal) v2 v3 v11 v19 v27 v35 v41 (ix2 (⟨8 * i.val + j.val, by omega⟩ : Fin 64) q)
      = degrees v2 v3 v11 v19 v27 v35 v41 0 q i.val * degrees v2 v3 v11 v19 v27 v35 v41 1 q j.val := by
  unfold k0_pay10
  try dsimp only
  refine (productTable_apply _ _ _ _ _ _ _ _ _ _ _ _ i j q).trans ?_
  refine congrArg₂ (· * ·) ?_ ?_
  · exact degreeTable_apply _ _ _ _ _ _ _ _ 0 _ _ (0 : Fin 2) rfl i q
  · exact degreeTable_apply _ _ _ _ _ _ _ _ 1 _ _ (1 : Fin 2) rfl j q

/-! ### The matrix product -/

theorem dot_lhs0 (i : S64x8192.Idx) (c : dot_S64x64_S64x8192_S64x8192_1_0_0_1_n_n.contr.Idx) : (dot_S64x64_S64x8192_S64x8192_1_0_0_1_n_n.lhsIdx i c 0).val = (i 0).val := by
  unfold DotDims.lhsIdx
  rw [dif_neg (show ¬(0 : Fin S64x64.rank) ∈ dot_S64x64_S64x8192_S64x8192_1_0_0_1_n_n.lhsBatch by decide), dif_pos (show (0 : Fin S64x64.rank) ∈ dot_S64x64_S64x8192_S64x8192_1_0_0_1_n_n.lhsNonContracting by decide)]
  rfl
theorem dot_rhs1 (i : S64x8192.Idx) (c : dot_S64x64_S64x8192_S64x8192_1_0_0_1_n_n.contr.Idx) : (dot_S64x64_S64x8192_S64x8192_1_0_0_1_n_n.rhsIdx i c 1).val = (i 1).val := by
  unfold DotDims.rhsIdx
  rw [dif_neg (show ¬(1 : Fin S64x8192.rank) ∈ dot_S64x64_S64x8192_S64x8192_1_0_0_1_n_n.rhsBatch by decide), dif_pos (show (1 : Fin S64x8192.rank) ∈ dot_S64x64_S64x8192_S64x8192_1_0_0_1_n_n.rhsNonContracting by decide)]
  rfl

/-- Entry `(r, q)` of the product is `Σ_k W[r, k] · B[k, q]`. -/
theorem product_apply (v94 : FVec Ideal S64x8192 .f32) (v95 : Vec Ideal S64x64 .f32) (r : Fin 64) (q : Fin 8192) :
    k0_pay11 (F := Ideal) v94 v95 (ix2 r q) = ∑ k : Fin 64, v95 (ix2 r k) * v94 (ix2 k q) := by
  unfold k0_pay11
  try dsimp only
  refine (Ideal.matmul_constant_zero_apply dot_S64x64_S64x8192_S64x8192_1_0_0_1_n_n none _ _ (ix2 r q)).trans ?_
  rw [← Equiv.sum_comp (contrEquiv1 dot_S64x64_S64x8192_S64x8192_1_0_0_1_n_n 64 rfl rfl).symm]
  refine Finset.sum_congr rfl fun k _ => ?_
  have hk := contrEquiv1_symm_val dot_S64x64_S64x8192_S64x8192_1_0_0_1_n_n 64 rfl rfl k
  have el : dot_S64x64_S64x8192_S64x8192_1_0_0_1_n_n.lhsIdx (ix2 r q) ((contrEquiv1 dot_S64x64_S64x8192_S64x8192_1_0_0_1_n_n 64 rfl rfl).symm k) = ix2 r k := funext fun a => Fin.ext (by
    match a with
    | ⟨0, _⟩ => exact dot_lhs0 _ _
    | ⟨1, _⟩ => exact (dot_S64x64_S64x8192_S64x8192_1_0_0_1_n_n.lhsIdx_val_of_single rfl _ _).trans hk)
  have er : dot_S64x64_S64x8192_S64x8192_1_0_0_1_n_n.rhsIdx (ix2 r q) ((contrEquiv1 dot_S64x64_S64x8192_S64x8192_1_0_0_1_n_n 64 rfl rfl).symm k) = ix2 k q := funext fun a => Fin.ext (by
    match a with
    | ⟨0, _⟩ => exact (dot_S64x64_S64x8192_S64x8192_1_0_0_1_n_n.rhsIdx_val_of_single rfl _ _).trans hk
    | ⟨1, _⟩ => exact dot_rhs1 _ _)
  rw [el, er]
  show shapeCast S64x64 v95 shapeCasts_S64x64_S64x64 (ix2 r k) * v94 (ix2 k q) = _
  rw [shapeCast_self]

/-! ### The column sums and the bias -/

/-- The index of row `k` over column `q`. -/
theorem lift_col (h : S64x8192.Reduces [0] S8192) (q : Fin 8192) (k : Fin (S64x8192.size 0)) :
    h.lift (ix1 q) k = ix2 (⟨k.val, k.isLt⟩ : Fin 64) q := by
  funext c; apply Fin.ext
  fin_cases c <;> rfl

/-- The second table of products times the matrix product, summed down each column. -/
theorem columnSums_apply (v99 : FVec Ideal S64x8192 .f32) (v100 v101 v109 v117 v125 v133 v139 : FVec Ideal S2x8192 .f32) (q : Fin 8192) :
    k0_pay19 (F := Ideal) v99 v100 v101 v109 v117 v125 v133 v139 (ix1 q)
      = ∑ r : Fin 64, (degrees v100 v101 v109 v117 v125 v133 v139 0 q (r.val / 8) * degrees v100 v101 v109 v117 v125 v133 v139 1 q (r.val % 8))
          * v99 (ix2 r q) := by
  unfold k0_pay19
  try dsimp only
  refine (Ideal.multiReduction_add_single _ _ _ _ _ (ix1 q)).trans ?_
  refine Finset.sum_congr rfl fun r _ => ?_
  rw [lift_col]
  have hr64 : r.val < 64 := r.isLt
  have hr : (⟨r.val, r.isLt⟩ : Fin 64) = (⟨8 * (⟨r.val / 8, by omega⟩ : Fin 8).val + (⟨r.val % 8, by omega⟩ : Fin 8).val, by omega⟩ : Fin 64) :=
    Fin.ext (by show r.val = 8 * (r.val / 8) + r.val % 8; omega)
  rw [mulf_apply]
  refine congrArg₂ (· * ·) ?_ rfl
  rw [hr]
  refine (productTable_apply _ _ _ _ _ _ _ _ _ _ _ _ (⟨r.val / 8, by omega⟩ : Fin 8) (⟨r.val % 8, by omega⟩ : Fin 8) q).trans ?_
  refine congrArg₂ (· * ·) ?_ ?_
  · exact degreeTable_apply _ _ _ _ _ _ _ _ 0 _ _ (0 : Fin 2) rfl _ q
  · exact degreeTable_apply _ _ _ _ _ _ _ _ 1 _ _ (1 : Fin 2) rfl _ q

/-- The stored row: the column sums, plus the one bias entry at every column. -/
theorem biased_apply (v194 : FVec Ideal S8192 .f32) (v196 : Vec Ideal S1x1 .f32) (q : Fin 8192) :
    k0_pay1 (F := Ideal) v194 v196 (ix2 (0 : Fin 1) q) = v194 (ix1 q) + v196 (ix2 (0 : Fin 1) (0 : Fin 1)) := by
  unfold k0_pay1
  try dsimp only
  rw [addf_apply]
  refine congrArg₂ (· + ·) ?_ ?_
  · exact shapeCast_a_1a_apply _ _ (0 : Fin 1) q
  · refine (broadcastTo_apply _ _ (ix2 (0 : Fin 1) q) (ix2 (0 : Fin 1) (0 : Fin 1)) fun a => ?_).trans ?_
    · match a with
      | ⟨0, _⟩ => rfl
      | ⟨1, _⟩ => rfl
    · exact congrFun (shapeCast_self _ _) _

end Cert.KernelIdeal.KerValue

end
-- ==== Proof.KerBody.lean ====
/-
  What the body leaves in the output block, at one column.

  Column `q` of the block holds one sample: rows 0 to 3 are its four coordinates `x₀ … x₃`. The body stores, at
  column `q` of its one-row output block,
      `Σ_r pair x₀ x₁ r · (Σ_k W[r, k] · pair x₂ x₃ k) + b`,
  where `pair p q r` is the product of the Legendre values of `p` and `q` for the two base-8 digits of `r`: the tables
  of products are the Legendre tables of the coordinates (KerLegs, KerPayload), the inner sum is the matrix product, the
  outer sum the column sum.
-/
import proofs.«158878_j79431125172612_2_alg».proof.Proof.Gen.KernelIdeal.Frame
import proofs.«158878_j79431125172612_2_alg».proof.Proof.KerLegs
import proofs.«158878_j79431125172612_2_alg».proof.Proof.KerPayload

noncomputable section

namespace Cert.KernelIdeal.KerValue

open Cert.KernelIdeal Cert.KernelIdeal.Gen Cert.Legendre Idealize.ShloMosaic Idealize.ShloMosaic.ValueIdx

variable [Facts]

theorem zeroOffsets : (![0, 0] : Fin 2 → Nat) = fun _ => 0 := funext fun a => by fin_cases a <;> rfl

/-- The table of products of the last two coordinates, at row `k` and column `q`. -/
theorem lastPairs_eq (x0 : Vec Ideal S4x8192 .f32) (k : Fin 64) (q : Fin 8192) :
    k0_pay10 (F := Ideal) (k0_pay3 x0) (k0_pay4 (F := Ideal)) (k0_pay5 x0) (k0_pay6 x0) (k0_pay7 x0) (k0_pay8 x0) (k0_pay9 x0) (ix2 k q)
      = pair (x0 (ix2 (2 : Fin 4) q)) (x0 (ix2 (3 : Fin 4) q)) k.val := by
  have hk64 : k.val < 64 := k.isLt
  have hk : k = (⟨8 * (⟨k.val / 8, by omega⟩ : Fin 8).val + (⟨k.val % 8, by omega⟩ : Fin 8).val, by omega⟩ : Fin 64) :=
    Fin.ext (by show k.val = 8 * (k.val / 8) + k.val % 8; omega)
  rw [hk]
  refine (lastPairs_apply _ _ _ _ _ _ _ (⟨k.val / 8, by omega⟩ : Fin 8) (⟨k.val % 8, by omega⟩ : Fin 8) q).trans ?_
  unfold pair
  refine congrArg₂ (· * ·) ?_ ?_
  · refine (degrees_eq_leg _ _ _ _ _ _ _ 0 q (⟨k.val / 8, by omega⟩ : Fin 8) (lastP0 _) (lastP2 _ _) (lastP3 _ _) (lastP4 _ _) (lastP5 _ _) (lastN6 _ _)).trans ?_
    show leg (k0_pay3 x0 (ix2 (0 : Fin 2) q)) _ = leg _ _
    rw [lastRows_apply]
    have e : (8 * (k.val / 8) + k.val % 8) / 8 = k.val / 8 := by omega
    exact congrArg (leg _) e.symm
  · refine (degrees_eq_leg _ _ _ _ _ _ _ 1 q (⟨k.val % 8, by omega⟩ : Fin 8) (lastP0 _) (lastP2 _ _) (lastP3 _ _) (lastP4 _ _) (lastP5 _ _) (lastN6 _ _)).trans ?_
    show leg (k0_pay3 x0 (ix2 (1 : Fin 2) q)) _ = leg _ _
    rw [lastRows_apply]
    have e : (8 * (k.val / 8) + k.val % 8) % 8 = k.val % 8 := by omega
    exact congrArg (leg _) e.symm

/-- The body's result at column `q`. -/
theorem body_apply (x0 : Vec Ideal S4x8192 .f32) (x1 : Vec Ideal S64x64 .f32) (x2 : Vec Ideal S1x1 .f32) (q : Fin 8192) :
    out0_3 (F := Ideal) x0 x1 x2 (ix2 (0 : Fin 1) q)
      = (∑ r : Fin 64, pair (x0 (ix2 (0 : Fin 4) q)) (x0 (ix2 (1 : Fin 4) q)) r.val
            * (∑ k : Fin 64, x1 (ix2 r k) * pair (x0 (ix2 (2 : Fin 4) q)) (x0 (ix2 (3 : Fin 4) q)) k.val))
        + x2 (ix2 (0 : Fin 1) (0 : Fin 1)) := by
  unfold out0_3
  rw [View.canon_unit_zero zeroOffsets]
  simp only [View.ld_unit_zero (S := S4x8192) zeroOffsets, View.ld_unit_zero (S := S64x64) zeroOffsets,
    View.ld_unit_zero (S := S1x1) zeroOffsets]
  rw [loaded_eq]
  refine (biased_apply _ _ q).trans ?_
  refine congrArg₂ (· + ·) ?_ rfl
  refine (columnSums_apply _ _ _ _ _ _ _ _ q).trans ?_
  refine Finset.sum_congr rfl fun r _ => ?_
  have hr64 : r.val < 64 := r.isLt
  refine congrArg₂ (· * ·) ?_ ?_
  · unfold pair
    refine congrArg₂ (· * ·) ?_ ?_
    · refine (degrees_eq_leg _ _ _ _ _ _ _ 0 q (⟨r.val / 8, by omega⟩ : Fin 8) (firstP0 _) (firstP2 _ _) (firstP3 _ _) (firstP4 _ _) (firstP5 _ _) (firstN6 _ _)).trans ?_
      show leg (k0_pay12 (F := Ideal) x0 (ix2 (0 : Fin 2) q)) _ = leg _ _
      rw [firstRows_apply]
      rfl
    · refine (degrees_eq_leg _ _ _ _ _ _ _ 1 q (⟨r.val % 8, by omega⟩ : Fin 8) (firstP0 _) (firstP2 _ _) (firstP3 _ _) (firstP4 _ _) (firstP5 _ _) (firstN6 _ _)).trans ?_
      show leg (k0_pay12 (F := Ideal) x0 (ix2 (1 : Fin 2) q)) _ = leg _ _
      rw [firstRows_apply]
      rfl
  · refine (product_apply _ _ r q).trans ?_
    refine Finset.sum_congr rfl fun k _ => ?_
    rw [lastPairs_eq]

end Cert.KernelIdeal.KerValue

end
-- ==== Proof.KerArray.lean ====
/-
  From what one point of the grid writes back to the whole result array of the blocked program.

  The grid has 8 points. At point t the region stages columns 8192·t … 8192·t + 8191 of the transposed sample array
  (all four rows), the whole 64 × 64 weight matrix and the 1 × 1 bias, and writes back columns 8192·t … 8192·t + 8191
  of the one-row result. Column q of the staged sample block is therefore sample 8192·t + q, entry (r, k) of the
  staged weights is weight 64·r + k, and the body's value at column q — the blocked arrangement of the feature sum
  over the staged blocks — is the blocked arrangement at sample 8192·t + q over the argument arrays. So what point t
  writes back is its block of one whole-array function, `result`. Column n of the result lies in the block of point
  n / 8192, so the eight blocks cover the array, and the array ends holding `result`.
-/
import proofs.«158878_j79431125172612_2_alg».proof.Proof.KerHost
import proofs.«158878_j79431125172612_2_alg».proof.Proof.KerBody

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The sample that column `q` of point `t`'s block holds: `8192·t + q`. -/
def sampleOf (t : Fin cfg0.N) (q : Fin 8192) : Fin 65536 :=
  ⟨8192 * t.val + q.val, by have := t.isLt; have hN : cfg0.N = 8 := N_0; have := q.isLt; omega⟩

/-- The block indices of the four windows at every point, decided over the grid: the sample window and the result
    window are at block column `t`, the weights and the bias at their one block. -/
theorem pointFacts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Entry `(d, q)` of the sample block at point `t` is coordinate `d` of sample `8192·t + q`. -/
theorem block_samples (c : Dev nD) (t : Fin cfg0.N) (d : Fin 4) (q : Fin 8192) :
    (iblk m c 0 t : Vec Ideal S4x8192 .f32) (ix2 d q)
      = (m ((c : Thread nD τ).loc main_arg0) : S65536x4.Idx → EReal) (ix2 (sampleOf t q) d) := by
  obtain ⟨e0, e1, -⟩ := pointFacts t
  rw [← host_samples m c d (sampleOf t q)]
  unfold iblk
  rw [View.read_apply]
  show (V m c main_call0_v0 : S4x65536.Idx → EReal) _ = (V m c main_call0_v0 : S4x65536.Idx → EReal) _
  refine congrArg (V m c main_call0_v0 : S4x65536.Idx → EReal) ?_
  funext a
  apply Fin.ext
  match a with
  | ⟨0, _⟩ => show win0_0.index t (0 : Fin 2) * 4 + 1 * d.val = d.val; rw [e0]; omega
  | ⟨1, _⟩ => show win0_0.index t (1 : Fin 2) * 8192 + 1 * q.val = 8192 * t.val + q.val; rw [e1]; omega

/-- Entry `(r, k)` of the weight block at any point is weight `64·r + k`. -/
theorem block_weights (c : Dev nD) (t : Fin cfg0.N) (r k : Fin 64) :
    (iblk m c 1 t : Vec Ideal S64x64 .f32) (ix2 r k)
      = (m ((c : Thread nD τ).loc main_arg1) : S1x4096.Idx → EReal)
          (ix2 (0 : Fin 1) (⟨64 * r.val + k.val, by have := r.isLt; have := k.isLt; omega⟩ : Fin 4096)) := by
  obtain ⟨-, -, e0, e1, -⟩ := pointFacts t
  rw [← host_weights m c r k]
  unfold iblk
  rw [View.read_apply]
  show (V m c main_call0_v1 : S64x64.Idx → EReal) _ = (V m c main_call0_v1 : S64x64.Idx → EReal) _
  refine congrArg (V m c main_call0_v1 : S64x64.Idx → EReal) ?_
  funext a
  apply Fin.ext
  match a with
  | ⟨0, _⟩ => show win0_1.index t (0 : Fin 2) * 64 + 1 * r.val = r.val; rw [e0]; omega
  | ⟨1, _⟩ => show win0_1.index t (1 : Fin 2) * 64 + 1 * k.val = k.val; rw [e1]; omega

/-- The one entry of the bias block at any point is the bias. -/
theorem block_bias (c : Dev nD) (t : Fin cfg0.N) :
    (iblk m c 2 t : Vec Ideal S1x1 .f32) (ix2 (0 : Fin 1) (0 : Fin 1))
      = (m ((c : Thread nD τ).loc main_arg2) : S1.Idx → EReal) (ix1 (0 : Fin 1)) := by
  obtain ⟨-, -, -, -, e0, e1, -⟩ := pointFacts t
  rw [← host_bias m c]
  unfold iblk
  rw [View.read_apply]
  show (V m c main_call0_v2 : S1x1.Idx → EReal) _ = (V m c main_call0_v2 : S1x1.Idx → EReal) _
  refine congrArg (V m c main_call0_v2 : S1x1.Idx → EReal) ?_
  funext a
  apply Fin.ext
  match a with
  | ⟨0, _⟩ => show win0_2.index t (0 : Fin 2) * 1 + 1 * 0 = 0; rw [e0]
  | ⟨1, _⟩ => show win0_2.index t (1 : Fin 2) * 1 + 1 * 0 = 0; rw [e1]

/-- Inside the 4096 features the weight of feature `64·r + k` is that entry of the weight row. -/
theorem wAt_block (W : Cert.Legendre.SW.Idx → EReal) (r k : Fin 64) :
    Cert.Legendre.wAt W (64 * r.val + k.val)
      = W (ix2 (0 : Fin 1) (⟨64 * r.val + k.val, by have := r.isLt; have := k.isLt; omega⟩ : Fin 4096)) := by
  unfold Cert.Legendre.wAt
  rw [dif_pos]

/-- The body's value at column `j` of point `t`'s blocks is the blocked arrangement at the sample that column holds. -/
theorem flushed_entry (c : Dev nD) (t : Fin cfg0.N) (j : S1x8192.Idx) (n : Fin 65536)
    (hn : n.val = 8192 * t.val + (j 1).val) :
    out0_3 (F := Ideal) (iblk m c 0 t) (iblk m c 1 t) (iblk m c 2 t) j
      = Cert.Legendre.kerAt (m ((c : Thread nD τ).loc main_arg0) : S65536x4.Idx → EReal)
          (m ((c : Thread nD τ).loc main_arg1) : S1x4096.Idx → EReal)
          (m ((c : Thread nD τ).loc main_arg2) : S1.Idx → EReal) n := by
  obtain ⟨z, q, rfl⟩ : ∃ (z : Fin 1) (q : Fin 8192), j = ix2 z q := ⟨j 0, j 1, eq_ix2 j⟩
  obtain rfl : z = 0 := Subsingleton.elim _ _
  obtain rfl : n = sampleOf t q := Fin.ext hn
  rw [body_apply, block_samples m c t 0 q, block_samples m c t 1 q, block_samples m c t 2 q,
    block_samples m c t 3 q, block_bias m c t]
  unfold Cert.Legendre.kerAt
  refine congrArg (· + _) (Finset.sum_congr rfl fun r _ => congrArg (_ * ·) (Finset.sum_congr rfl fun k _ => ?_))
  rw [block_weights m c t r k, wAt_block]

/-- What point `t` writes back is its block of `result`. -/
theorem flushed_eq (c : Dev nD) (t : Fin cfg0.N) :
    (dats m 0 c).flushed 3 t = ((cfg0.win 3).blk t).view.read (Elt Ideal) (result m c) := by
  obtain ⟨-, -, -, -, -, -, -, e1⟩ := pointFacts t
  show (cfg0.win 3).cut (grid0.coords t) ((dats m 0 c).after 3 t) = _
  rw [after0_3]
  funext j
  show out0_3 (F := Ideal) (iblk m c 0 t) (iblk m c 1 t) (iblk m c 2 t) j
    = result m c (((cfg0.win 3).blk t).view.emb j)
  unfold result
  refine flushed_entry m c t j _ ?_
  show win0_3.index t (1 : Fin 2) * 8192 + 1 * (j 1).val = 8192 * t.val + (j 1).val
  rw [e1]; omega

/-- An index of the result array is in point `t`'s block iff each coordinate is in the block's range on its axis. -/
theorem mem_block (t : Fin cfg0.N) (i : S1x65536.Idx) :
    i ∈ ((cfg0.win 3).blk t).view.set
      ↔ ∀ a : Fin 2, win0_3.index t a * S1x8192.size a ≤ (i a).val
          ∧ (i a).val < win0_3.index t a * S1x8192.size a + S1x8192.size a := by
  show i ∈ ((View.whole main_call0_v3).slice (win0_3.rect t)).set ↔ _
  rw [View.set_slice_whole, Rect.mem_set_unit]
  exact Iff.rfl

/-- The eight blocks cover the result array, so it ends holding `result`. -/
theorem final (c : Dev nD) : (dats m 0 c).arrAt 3 cfg0.N = result m c := by
  have hN : cfg0.N = 8 := N_0
  refine (dats m 0 c).arrAt_eq_of_cover 3 (result m c) (fun t _ => flushed_eq m c t) fun i => ?_
  have h0 : (i 0).val < 1 := idx2_lt0 i
  have h1 : (i 1).val < 65536 := idx2_lt1 i
  refine ⟨⟨(i 1).val / 8192, by omega⟩, flush0_3 _, ?_⟩
  obtain ⟨-, -, -, -, -, -, e0, e1⟩ := pointFacts ⟨(i 1).val / 8192, by omega⟩
  rw [mem_block]
  intro a
  match a with
  | ⟨0, _⟩ =>
    show win0_3.index _ (0 : Fin 2) * 1 ≤ (i 0).val ∧ (i 0).val < win0_3.index _ (0 : Fin 2) * 1 + 1
    rw [e0]; omega
  | ⟨1, _⟩ =>
    show win0_3.index _ (1 : Fin 2) * 8192 ≤ (i 1).val ∧ (i 1).val < win0_3.index _ (1 : Fin 2) * 8192 + 8192
    rw [e1]; show (i 1).val / 8192 * 8192 ≤ (i 1).val ∧ (i 1).val < (i 1).val / 8192 * 8192 + 8192; omega

end Cert.KernelIdeal.KerValue

end
-- ==== Proof.KerRun.lean ====
/-
  The blocked program's run, through the one operation after its region.

  The region leaves, in its `[1, 65536]` result array, the blocked arrangement of the Legendre feature sum: column
  `n` of the single row is the value at sample `n`. The program's last operation transposes that row into the
  `[65536, 1]` column it returns, so entry `(n, 0)` of the result is the row's entry `(0, n)`, the value at sample
  `n`. The three argument arrays are written by no operation, before, inside or after the region, and end as they
  were launched.

  Every terminating run of the whole program ends in a state where each array the region stages holds what the
  blocks written back make of it, and every other buffer holds what the operations after the region compute from
  those arrays and from the contents at the region's entry. The result buffer is of the second kind: its contents
  are the transpose applied to the region's result array, which is the array identified block by block before.
-/
import proofs.«158878_j79431125172612_2_alg».proof.Proof.KerArray

noncomputable section

namespace Cert.KernelIdeal.KerValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the operation after the region leaves in the result buffer: the transpose of the region's result array,
    whose entry `(n, 0)` is the blocked arrangement at sample `n`. -/
theorem tail_result (c : Dev nD) :
    Pipeline.afterTail₀ cfgs (dats m) 0 (V0 m) [hostOps1] c main_v0
      = fun i => Cert.Legendre.kerAt (m ((c.tc : Thread nD τ).loc main_arg0)) (m ((c.tc : Thread nD τ).loc main_arg1))
          (m ((c.tc : Thread nD τ).loc main_arg2)) (i 0) := by
  unfold Pipeline.afterTail₀
  show StableHlo.after hostOps1 _ (Proc.devRef .tc main_v0) = _
  after_results
  -- the array the transpose reads is the region's fourth window's, as the write-backs leave it
  have hw : Pipeline.withArrays (cfgs 0).spec c (V0 m c) (fun w => (dats m 0 c).arrAt w (cfgs 0).N)
      (Proc.devRef .tc main_call0_v3) = result m c :=
    (Pipeline.withArrays_arr spec0 launch0.win.arr_inj c _ _ 3).trans (final m c)
  show transpose S65536x1 [1, 0] (Pipeline.withArrays (cfgs 0).spec c (V0 m c)
      (fun w => (dats m 0 c).arrAt w (cfgs 0).N) (Proc.devRef .tc main_call0_v3)) transposes_S1x65536_S65536x1_1_0 = _
  rw [hw]
  funext i
  obtain ⟨n, u, rfl⟩ : ∃ (n : Fin 65536) (u : Fin 1), i = ix2 n u := ⟨i 0, i 1, eq_ix2 i⟩
  rw [transpose_ix2_apply]
  rfl

/-- **The blocked program's run**: it terminates without a fault; its result holds the blocked arrangement of the
    Legendre feature sum, sample by sample, and its three argument arrays end unchanged. -/
theorem run : θ_run defs (onTc (τ := τ) (main (F := Ideal))) ⟨m, fun _ => 0, ρ⟩ fun r => ∀ c : Dev nD,
    r.2.mem ((c.tc : Thread nD τ).loc main_v0) = (fun i => Cert.Legendre.kerAt (m ((c.tc : Thread nD τ).loc main_arg0)) (m ((c.tc : Thread nD τ).loc main_arg1)) (m ((c.tc : Thread nD τ).loc main_arg2)) (i 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c =>
    ⟨((h c).2 main_v0 (Pipeline.mem_restRefs_of main_v0 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.lean ====
/-
  The certificate: a blocked Pallas kernel for a multivariate Legendre feature map followed by a linear layer, against
  its plain jnp reference, equal as extended reals on finite inputs.

  Both programs map a sample `(x₀, x₁, x₂, x₃)` to `Σ_f (P_{d₀}(x₀) P_{d₁}(x₁) P_{d₂}(x₂) P_{d₃}(x₃)) · W[0, f] + b`, the sum over
  the 4096 base-8 digit strings `f = d₀d₁d₂d₃`, with the Legendre values `P₀ … P₇` computed by the same Bonnet recurrence
  with the same float literals (Spec.lean). The reference forms all 4096 products and contracts them with `W` in one
  sum (RefLegendre … RefResult: its host operations read one at a time give `Cert.Legendre.G`). The kernel keeps the
  samples on the lane axis, factors the features as 64 × 64, contracts `W` (as a 64 × 64 matrix) with the products of
  the last two coordinates in one matrix product and the result with the products of the first two coordinates in a
  column sum (KerLegs … KerBody: one column of one block; KerHost, KerArray, KerRun: the transposes and reshapes
  around the region, the eight blocks as one array, the run). The two arrangements differ by distributing a factor over a sum
  and regrouping products, which on the extended reals needs every factor finite: the precondition gives finite
  coordinates and weights (Finite.lean), the Legendre values of finite coordinates are finite, and the law follows
  over the reals (Algebra.lean). The bias is added last on both sides and needs no hypothesis.

  The three frames are the generated frame runs (the reference's is its generated run with the result dropped); the
  idealization rewrote nothing, so `preserves` is trivial.
-/
import proofs.«158878_j79431125172612_2_alg».proof.Defs
import proofs.«158878_j79431125172612_2_alg».proof.Proof.Gen.Kernel
import proofs.«158878_j79431125172612_2_alg».proof.Proof.Gen.Kernel.Skeleton
import proofs.«158878_j79431125172612_2_alg».proof.Proof.Gen.Kernel.Launch
import proofs.«158878_j79431125172612_2_alg».proof.Proof.Gen.Kernel.Points
import proofs.«158878_j79431125172612_2_alg».proof.Proof.Gen.Kernel.Frame
import proofs.«158878_j79431125172612_2_alg».proof.Proof.Gen.KernelIdeal
import proofs.«158878_j79431125172612_2_alg».proof.Proof.Gen.KernelIdeal.Skeleton
import proofs.«158878_j79431125172612_2_alg».proof.Proof.Gen.KernelIdeal.Launch
import proofs.«158878_j79431125172612_2_alg».proof.Proof.Gen.KernelIdeal.Points
import proofs.«158878_j79431125172612_2_alg».proof.Proof.Gen.KernelIdeal.Frame
import proofs.«158878_j79431125172612_2_alg».proof.Proof.Gen.ReferenceIdeal
import proofs.«158878_j79431125172612_2_alg».proof.Proof.Gen.Pre_finite_inputs
import proofs.«158878_j79431125172612_2_alg».proof.Proof.Gen.ReferenceIdeal.Run
import proofs.«158878_j79431125172612_2_alg».proof.Proof.Gen.ReferenceIdeal.Read
import proofs.«158878_j79431125172612_2_alg».proof.Proof.Algebra
import proofs.«158878_j79431125172612_2_alg».proof.Proof.Finite
import proofs.«158878_j79431125172612_2_alg».proof.Proof.RefResult
import proofs.«158878_j79431125172612_2_alg».proof.Proof.KerRun
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the plain arrangement `Cert.Legendre.G` of the kernel's arguments: the kernel's run ends with
    the blocked arrangement, equal to the plain one because the precondition makes the coordinates and the weights
    finite; the reference's run ends with the plain arrangement of its own arguments, which agree with the kernel's. -/
theorem algebraic : Cert.algebraic_KernelIdeal_ReferenceIdeal := by
  intro m ρ m' ρ' hpre hagree
  refine ⟨fun c => Cert.Legendre.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.KerValue.run m ρ)
    obtain ⟨hx, hW⟩ := Cert.Legendre.Finite.finite_of_pre _ _ _ (hpre c)
    funext i
    exact Cert.Legendre.kerAt_eq_refAt _ _ _ hx hW (i 0)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, Cert.ReferenceIdeal.RefValue.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
